-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S3x64x64 : Shape := ⟨3, ![3, 64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x64 .f32) (main_arg1 : IVec S2x1600000 32) (main_arg2 : FVec F S3x64x64 .f32) (main_arg3 : FVec F S64 .f32) (main_arg4 : FVec F S3x64x64 .f32) (main_arg5 : FVec F S64 .f32) (main_arg6 : FVec F S64x2 .f32) (main_arg7 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x64 : Shape := ⟨2, ![50000, 64]⟩
abbrev S2x1600000 : Shape := ⟨2, ![2, 1600000]⟩
abbrev S3x64x64 : Shape := ⟨3, ![3, 64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x64 : Shape := ⟨2, ![1600000, 64]⟩
abbrev S5000x64 : Shape := ⟨2, ![5000, 64]⟩
abbrev S1x64x64 : Shape := ⟨3, ![1, 64, 64]⟩
abbrev S64x64 : Shape := ⟨2, ![64, 64]⟩
abbrev S1x64 : Shape := ⟨2, ![1, 64]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 124
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S3x64x64, .f32⟩
  | .hbm, ⟨3, _⟩ => ⟨S64, .f32⟩
  | .hbm, ⟨4, _⟩ => ⟨S3x64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x1, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S50000x64, .f32⟩
  | .hbm, ⟨63, _⟩ => ⟨S1600000x1, .i32⟩
  | .hbm, ⟨64, _⟩ => ⟨S50000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S50000x64, .f32⟩
  | .hbm, ⟨79, _⟩ => ⟨S1600000x1, .i32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S50000x64, .f32⟩
  | .hbm, ⟨100, _⟩ => ⟨S1600000x1, .i32⟩
  | .hbm, ⟨101, _⟩ => ⟨S50000x64, .f32⟩
  | .hbm, ⟨102, _⟩ => ⟨S_, .i32⟩
  | .hbm, ⟨103, _⟩ => ⟨S1600000, .i32⟩
  | .hbm, ⟨104, _⟩ => ⟨S1600000, .i1⟩
  | .hbm, ⟨105, _⟩ => ⟨S_, .i32⟩
  | .hbm, ⟨106, _⟩ => ⟨S1600000, .i32⟩
  | .hbm, ⟨107, _⟩ => ⟨S1600000, .i32⟩
  | .hbm, ⟨108, _⟩ => ⟨S1600000, .i32⟩
  | .hbm, ⟨109, _⟩ => ⟨S1600000x1, .i32⟩
  | .hbm, ⟨110, _⟩ => ⟨S1600000x64, .f32⟩
  | .hbm, ⟨111, _⟩ => ⟨S1600000x1, .f32⟩
  | .hbm, ⟨112, _⟩ => ⟨S1600000x64, .f32⟩
  | .hbm, ⟨113, _⟩ => ⟨S1600000x64, .f32⟩
  | .hbm, ⟨114, _⟩ => ⟨S_, .f32⟩
  | .hbm, ⟨115, _⟩ => ⟨S50000x64, .f32⟩
  | .hbm, ⟨116, _⟩ => ⟨S1600000x1, .i32⟩
  | .hbm, ⟨117, _⟩ => ⟨S50000x64, .f32⟩
  | .hbm, ⟨118, _⟩ => ⟨S_, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S50000x64, .f32⟩
  | .hbm, ⟨123, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x2, .f32⟩
  | .local _ .vmem, ⟨23, _⟩ => ⟨S2, .f32⟩
  | .local _ .vmem, ⟨24, _⟩ => ⟨S5000x2, .f32⟩
  | .local _ .vmem, ⟨25, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S50000x2.size a
  hwx2_3 : ∀ i : grid2.Coords, EltTy.bits .f32 = 32 ∨ (Rect.block (s := S50000x2) S5000x2.size (cc2_transform_3 i) (hinb2_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S3x64x64 : Shape := ⟨3, ![3, 64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 200
  | .vmem => 0
  | .smem => 0
  | _ => 0

abbrev hbmTy0_0 (i : Nat) : BufTy := match i % 128 with
  | 0 => ⟨S50000x64, .f32⟩
  | 1 => ⟨S2x1600000, .i32⟩
  | 2 => ⟨S3x64x64, .f32⟩
  | 3 => ⟨S64, .f32⟩
  | 4 => ⟨S3x64x64, .f32⟩
  | 5 => ⟨S64, .f32⟩
  | 6 => ⟨S64x2, .f32⟩
  | 7 => ⟨S2, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1600000, .f32⟩
  | 49 => ⟨S1x64x64, .f32⟩
  | 50 => ⟨S64x64, .f32⟩
  | 51 => ⟨S50000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S50000x64, .f32⟩
  | 66 => ⟨S1600000x1, .i32⟩
  | 67 => ⟨S50000x64, .f32⟩
  | 68 => ⟨S1x64x64, .f32⟩
  | 69 => ⟨S64x64, .f32⟩
  | 70 => ⟨S50000x64, .f32⟩
  | 71 => ⟨S50000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S50000x64, .f32⟩
  | 86 => ⟨S1600000x1, .i32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S1x64x64, .f32⟩
  | 93 => ⟨S64x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S1x1600000, .i32⟩
  | 103 => ⟨S1600000, .i32⟩
  | 104 => ⟨S1x1600000, .i32⟩
  | 105 => ⟨S1600000, .i32⟩
  | 106 => ⟨S_, .f32⟩
  | 107 => ⟨S1600000, .f32⟩
  | 108 => ⟨S_, .f32⟩
  | 109 => ⟨S50000, .f32⟩
  | 110 => ⟨S1600000x1, .i32⟩
  | 111 => ⟨S50000, .f32⟩
  | 112 => ⟨S_, .f32⟩
  | 113 => ⟨S50000, .f32⟩
  | 114 => ⟨S50000, .i1⟩
  | 115 => ⟨S_, .f32⟩
  | 116 => ⟨S50000, .f32⟩
  | 117 => ⟨S50000, .f32⟩
  | 118 => ⟨S50000, .f32⟩
  | 119 => ⟨S_, .f32⟩
  | 120 => ⟨S_, .f32⟩
  | 121 => ⟨S50000, .f32⟩
  | 122 => ⟨S50000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S1600000, .f32⟩
  | 15 => ⟨S1x64x64, .f32⟩
  | 16 => ⟨S64x64, .f32⟩
  | 17 => ⟨S50000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S50000x64, .f32⟩
  | 32 => ⟨S1600000x1, .i32⟩
  | 33 => ⟨S50000x64, .f32⟩
  | 34 => ⟨S1x64x64, .f32⟩
  | 35 => ⟨S64x64, .f32⟩
  | 36 => ⟨S50000x64, .f32⟩
  | 37 => ⟨S50000x64, .f32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x64, .f32⟩
  | 49 => ⟨S1600000x64, .f32⟩
  | 50 => ⟨S_, .f32⟩
  | 51 => ⟨S50000x64, .f32⟩
  | 52 => ⟨S1600000x1, .i32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S1x64x64, .f32⟩
  | 59 => ⟨S64x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x2, .f32⟩
  | 69 => ⟨S1x2, .f32⟩
  | 70 => ⟨S50000x2, .f32⟩
  | 71 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_call2_v0 : Ref sig .tc := ⟨.hbm, 120, rfl⟩
abbrev main_call2_v1 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_c_22 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_23 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_25 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_26 : Ref sig .tc := ⟨.hbm, 167, rfl⟩
abbrev main_v125 : Ref sig .tc := ⟨.hbm, 168, rfl⟩
abbrev main_v126 : Ref sig .tc := ⟨.hbm, 169, rfl⟩
abbrev main_c_27 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_28 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_29 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_call3_cst : Ref sig .tc := ⟨.hbm, 193, rfl⟩
abbrev main_call3_v0 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x2_S50000x2_1_0_0_1_n_n_wf : DotDims.WF S50000x64 S64x2 S50000x2 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel's run with its result named.

  The program is seven segments: three stretches of host operations (the row and column indices, the degrees and the
  edge weights; the first layer's two propagations), the first layer's kernel over ten blocks of rows, a stretch of host
  operations (the second layer's two propagations), the second layer's kernel, and the head's kernel. The contents of
  every buffer at each boundary are a fold from the launch memory: a stretch applies its operations, a kernel region
  replaces its output array by what its ten write-backs leave and keeps every other buffer. Every weakly fair execution
  terminates, nothing faulting, and the final memory is the end of that fold at every unscoped buffer; read at the
  result buffer it names the result, read at the argument buffers it says they are unchanged.
-/
import proofs.«106720_j20590073217364_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the end of the
    fold of the seven segments from the launch memory, and the eight argument arrays as launched. -/
theorem run_named : θ_run defs (onTc (τ := τ) (main (F := F))) ⟨m, fun _ => 0, ρ⟩ (fun r => ∀ c : Dev nD,
      r.2.mem ((c.tc : Thread nD τ).loc main_v90) = W7 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v90 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Named

end
-- ==== Proof.HostStages.lean ====
/-
  The idealized kernel's buffers between its kernel regions, read as the reference's own stages.

  Both programs compute the row and column indices, the node degrees, the edge weights
  -(d[row]^(-1/2) d[col]^(-1/2)) and each propagation (gather the rows the row index names, scale each gathered row by
  its edge's weight, scatter-add into the rows the column index names) with the same host operations on the same
  operands; the one difference is the order of the two factors of the scaling product, and a product of extended reals
  commutes. The kernel computes the edge weights once and uses them in both layers, where the reference computes them
  again for its second layer from the same index array: the same term. So each array the kernel hands to a layer's
  kernel region is the array the reference feeds the matching matrix product: T1 = P x and T2 = 2 P (P x) - x for the
  first layer, and the same of the first layer's activation for the second.
  The kernel's host operations come in stretches (the indices and degrees; the selection d > 0 ? d^(-1/2) : 0, an
  outlined function; the weights and the first layer's propagations; the second layer's propagations), and each
  stretch is read on its own, from the buffers the stretch before it left.
-/
import proofs.«106720_j20590073217364_1_alg».proof.Proof.Gen.KernelIdeal.Frame
import proofs.«106720_j20590073217364_1_alg».proof.Proof.RefReadP

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.ReadP

/-- A product of two arrays of extended reals, entry by entry, does not depend on the order of its factors. -/
theorem mulf_comm {s : Shape} (a b : FVec Ideal s .f32) : mulf a b = mulf b a :=
  funext fun i => mul_comm (a i) (b i)

variable (m : (ℓ : Loc nD τ sig) → Buf (Elt Ideal) ℓ) (ρ : Dev nD → PrngReg) (c : Dev nD)

-- the argument arrays at launch
set_option quotPrecheck false
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)

/-! ## After the first stretch: the indices, the degrees' comparison and inverse square root -/

theorem s1_row : W1 m ρ c (Proc.devRef .tc main_v1) = val_main_v1 (F := Ideal) x1 := by
  dsimp only [W1, W0]; after_results_simp; rfl
theorem s1_col : W1 m ρ c (Proc.devRef .tc main_v3) = val_main_v3 (F := Ideal) x1 := by
  dsimp only [W1, W0]; after_results_simp; rfl
theorem s1_pos : W1 m ρ c (Proc.devRef .tc main_v9) = val_main_v9 (F := Ideal) x1 := by
  dsimp only [W1, W0]; after_results_simp; rfl
theorem s1_rsqrt : W1 m ρ c (Proc.devRef .tc main_v12) = val_main_v12 (F := Ideal) x1 := by
  dsimp only [W1, W0]; after_results_simp; rfl
theorem s1_zero : W1 m ρ c (Proc.devRef .tc main_cst_3) = val_main_cst_3 (F := Ideal) := by
  dsimp only [W1, W0]; after_results_simp; rfl
theorem s1_arg0 : W1 m ρ c (Proc.devRef .tc main_arg0) = x0 := by
  dsimp only [W1, W0]; after_results_simp

/-! ## After the second stretch: d > 0 ? d^(-1/2) : 0 -/

/-- The outlined selection, from whatever the buffers hold when it is entered: its result buffer ends at the selection of
    the comparison's and the inverse square root's buffers against a broadcast of the zero constant's. -/
theorem where_stretch (V : Valuation τ sig (Elt Ideal)) :
    StableHlo.after (hostOps0_1 (F := Ideal)) V (Proc.devRef .tc main_v13)
      = select (V (Proc.devRef .tc main_v9)) (V (Proc.devRef .tc main_v12))
          (broadcastInDim S50000 ![] bcast_S_S50000 (id (V (Proc.devRef .tc main_cst_3)))) := by
  after_results_simp; rfl

theorem s2_dis : W2 m ρ c (Proc.devRef .tc main_v13) = val_main_v13 (F := Ideal) x1 := by
  refine (where_stretch (W1 m ρ c)).trans ?_
  rw [s1_pos, s1_rsqrt, s1_zero]
  rfl

/-- The selection's stretch writes none of these. -/
theorem s2_row : W2 m ρ c (Proc.devRef .tc main_v1) = val_main_v1 (F := Ideal) x1 := by
  dsimp only [W2, W1, W0]; after_results_simp; rfl
theorem s2_col : W2 m ρ c (Proc.devRef .tc main_v3) = val_main_v3 (F := Ideal) x1 := by
  dsimp only [W2, W1, W0]; after_results_simp; rfl
theorem s2_arg0 : W2 m ρ c (Proc.devRef .tc main_arg0) = x0 := by
  dsimp only [W2, W1, W0]; after_results_simp

/-! ## The third stretch: the edge weights and the first layer's two propagations -/

section Stretches

variable (V : Valuation τ sig (Elt Ideal))
  (a0 : (⟨S50000x64, .f32⟩ : BufTy).Contents (Elt Ideal)) (e : (⟨S2x1600000, .i32⟩ : BufTy).Contents (Elt Ideal))
  (a2 : (⟨S3x64x64, .f32⟩ : BufTy).Contents (Elt Ideal)) (a3 : (⟨S64, .f32⟩ : BufTy).Contents (Elt Ideal))

/-- The edge weights -(d[row]^(-1/2) d[col]^(-1/2)), from the selection and the two indices. -/
theorem weights_stretch (h13 : V (Proc.devRef .tc main_v13) = val_main_v13 (F := Ideal) e)
    (h1 : V (Proc.devRef .tc main_v1) = val_main_v1 (F := Ideal) e) (h3 : V (Proc.devRef .tc main_v3) = val_main_v3 (F := Ideal) e) :
    StableHlo.after (hostOps0_2 (F := Ideal)) V (Proc.devRef .tc main_v29) = val_main_v29 (F := Ideal) e := by
  after_results_simp; rw [h13, h1, h3]; rfl

/-- T1 = P x: the kernel scales the gathered rows by the weights, the reference the weights by the gathered rows. -/
theorem prop1_stretch (h13 : V (Proc.devRef .tc main_v13) = val_main_v13 (F := Ideal) e)
    (h1 : V (Proc.devRef .tc main_v1) = val_main_v1 (F := Ideal) e) (h3 : V (Proc.devRef .tc main_v3) = val_main_v3 (F := Ideal) e)
    (h0 : V (Proc.devRef .tc main_arg0) = a0) :
    StableHlo.after (hostOps0_2 (F := Ideal)) V (Proc.devRef .tc main_v42) = val_main_v45 (F := Ideal) a0 e := by
  unfold val_main_v45 val_main_v42
  rw [mulf_comm (val_main_v41 (F := Ideal) _) _]
  after_results_simp; rw [h13, h1, h3, h0]; rfl

/-- T2 = 2 P (P x) - x, the same commutation in each of the two propagations. -/
theorem cheb1_stretch (h13 : V (Proc.devRef .tc main_v13) = val_main_v13 (F := Ideal) e)
    (h1 : V (Proc.devRef .tc main_v1) = val_main_v1 (F := Ideal) e) (h3 : V (Proc.devRef .tc main_v3) = val_main_v3 (F := Ideal) e)
    (h0 : V (Proc.devRef .tc main_arg0) = a0) :
    StableHlo.after (hostOps0_2 (F := Ideal)) V (Proc.devRef .tc main_v58) = val_main_v65 (F := Ideal) a0 e := by
  unfold val_main_v65 val_main_v64 val_main_v62 val_main_v59
  rw [mulf_comm (val_main_v58 (F := Ideal) _) _]
  unfold val_main_v57 val_main_v45 val_main_v42
  rw [mulf_comm (val_main_v41 (F := Ideal) _) _]
  after_results_simp; rw [h13, h1, h3, h0]; rfl

/-! ## The fourth stretch: the second layer's two propagations, of the first layer's activation -/

/-- P h: the reference gathers with the indices and weights it recomputed, which are the same terms. -/
theorem prop2_stretch (h59 : V (Proc.devRef .tc main_v59) = val_main_v73 (F := Ideal) a0 e a2 a3)
    (h1 : V (Proc.devRef .tc main_v1) = val_main_v75 (F := Ideal) e) (h3 : V (Proc.devRef .tc main_v3) = val_main_v77 (F := Ideal) e)
    (hw : V (Proc.devRef .tc main_v29) = val_main_v103 (F := Ideal) e) :
    StableHlo.after (hostOps1 (F := Ideal)) V (Proc.devRef .tc main_v72) = val_main_v119 (F := Ideal) a0 e a2 a3 := by
  unfold val_main_v119 val_main_v116
  rw [mulf_comm (val_main_v115 (F := Ideal) _) _]
  after_results_simp; rw [h59, h1, h3, hw]; rfl

/-- 2 P (P h) - h. -/
theorem cheb2_stretch (h59 : V (Proc.devRef .tc main_v59) = val_main_v73 (F := Ideal) a0 e a2 a3)
    (h1 : V (Proc.devRef .tc main_v1) = val_main_v75 (F := Ideal) e) (h3 : V (Proc.devRef .tc main_v3) = val_main_v77 (F := Ideal) e)
    (hw : V (Proc.devRef .tc main_v29) = val_main_v103 (F := Ideal) e) :
    StableHlo.after (hostOps1 (F := Ideal)) V (Proc.devRef .tc main_v88) = val_main_v139 (F := Ideal) a0 e a2 a3 := by
  unfold val_main_v139 val_main_v138 val_main_v136 val_main_v133
  rw [mulf_comm (val_main_v132 (F := Ideal) _) _]
  unfold val_main_v131 val_main_v119 val_main_v116
  rw [mulf_comm (val_main_v115 (F := Ideal) _) _]
  after_results_simp; rw [h59, h1, h3, hw]; rfl

/-- The fourth stretch writes neither the first activation nor an argument. -/
theorem hostOps1_keeps_v59 : StableHlo.after (hostOps1 (F := Ideal)) V (Proc.devRef .tc main_v59) = V (Proc.devRef .tc main_v59) := by
  after_results_simp
theorem hostOps1_keeps_arg4 : StableHlo.after (hostOps1 (F := Ideal)) V (Proc.devRef .tc main_arg4) = V (Proc.devRef .tc main_arg4) := by
  after_results_simp
theorem hostOps1_keeps_arg5 : StableHlo.after (hostOps1 (F := Ideal)) V (Proc.devRef .tc main_arg5) = V (Proc.devRef .tc main_arg5) := by
  after_results_simp
theorem hostOps1_keeps_arg6 : StableHlo.after (hostOps1 (F := Ideal)) V (Proc.devRef .tc main_arg6) = V (Proc.devRef .tc main_arg6) := by
  after_results_simp
theorem hostOps1_keeps_arg7 : StableHlo.after (hostOps1 (F := Ideal)) V (Proc.devRef .tc main_arg7) = V (Proc.devRef .tc main_arg7) := by
  after_results_simp

end Stretches

/-! ## At the first layer's region -/

/-- No host operation before the first region writes an argument. -/
theorem entry0_arg0 : W3 m ρ c (Proc.devRef .tc main_arg0) = x0 := by
  dsimp only [W3, W2, W1, W0]; after_results_simp
theorem entry0_arg2 : W3 m ρ c (Proc.devRef .tc main_arg2) = x2 := by
  dsimp only [W3, W2, W1, W0]; after_results_simp
theorem entry0_arg3 : W3 m ρ c (Proc.devRef .tc main_arg3) = x3 := by
  dsimp only [W3, W2, W1, W0]; after_results_simp
theorem entry0_arg4 : W3 m ρ c (Proc.devRef .tc main_arg4) = x4 := by
  dsimp only [W3, W2, W1, W0]; after_results_simp
theorem entry0_arg5 : W3 m ρ c (Proc.devRef .tc main_arg5) = x5 := by
  dsimp only [W3, W2, W1, W0]; after_results_simp
theorem entry0_arg6 : W3 m ρ c (Proc.devRef .tc main_arg6) = x6 := by
  dsimp only [W3, W2, W1, W0]; after_results_simp
theorem entry0_arg7 : W3 m ρ c (Proc.devRef .tc main_arg7) = x7 := by
  dsimp only [W3, W2, W1, W0]; after_results_simp

/-- The row index, the column index and the edge weights the kernel computes once are the ones the reference computes
    again for its second layer: the same operations on the same index array. -/
theorem entry0_row : W3 m ρ c (Proc.devRef .tc main_v1) = val_main_v75 (F := Ideal) x1 := by
  dsimp only [W3, W2, W1, W0]; after_results_simp; rfl
theorem entry0_col : W3 m ρ c (Proc.devRef .tc main_v3) = val_main_v77 (F := Ideal) x1 := by
  dsimp only [W3, W2, W1, W0]; after_results_simp; rfl
theorem entry0_weights : W3 m ρ c (Proc.devRef .tc main_v29) = val_main_v103 (F := Ideal) x1 :=
  (weights_stretch (W2 m ρ c) x1 (s2_dis m ρ c) (s2_row m ρ c) (s2_col m ρ c)).trans rfl

theorem entry0_prop : W3 m ρ c (Proc.devRef .tc main_v42) = val_main_v45 (F := Ideal) x0 x1 :=
  prop1_stretch (W2 m ρ c) x0 x1 (s2_dis m ρ c) (s2_row m ρ c) (s2_col m ρ c) (s2_arg0 m ρ c)
theorem entry0_cheb : W3 m ρ c (Proc.devRef .tc main_v58) = val_main_v65 (F := Ideal) x0 x1 :=
  cheb1_stretch (W2 m ρ c) x0 x1 (s2_dis m ρ c) (s2_row m ρ c) (s2_col m ρ c) (s2_arg0 m ρ c)

end Cert.KernelIdeal.Host

end
-- ==== Proof.DenseSpec.lean ====
/-
  The dense part of the network as functions of whole arrays on the extended reals.

  One Chebyshev layer takes the three propagated terms T0, T1, T2 (each 50000 x 64), the stack of three 64 x 64
  weight matrices and a bias row, and returns relu (((T0 W[0] + T1 W[1]) + T2 W[2]) + b): entry (r, j) depends on row r
  of each term and on column j of each matrix, the three products summed left to right, then the bias, then the
  maximum with zero. The head is h Wlin + blin, entry (r, j) from row r of h and column j of Wlin.
  Both programs compute exactly these functions, the kernel block of rows by block of rows and the reference on the
  whole arrays; a matrix product is a sum over the 64 contracted coordinates in either, and a sum over a finite
  index type on the extended reals does not depend on the order of its terms.
-/
import Idealize.ShloMosaic.PureOps.Ideal
import Idealize.ShloMosaic.Lib.ValueIdx

noncomputable section

namespace Cert.Dense

open Idealize.ShloMosaic Idealize.ShloMosaic.ValueIdx

/-- Entry (r, j) of relu (((T0 W[0] + T1 W[1]) + T2 W[2]) + b). The zero is the float word 0x00000000, kept as a word. -/
def layerAt (t0 t1 t2 : FVec Ideal ⟨2, ![50000, 64]⟩ .f32) (w : FVec Ideal ⟨3, ![3, 64, 64]⟩ .f32)
    (b : FVec Ideal ⟨1, ![64]⟩ .f32) (r : Fin 50000) (j : Fin 64) : EReal :=
  max ((((∑ k : Fin 64, t0 (ix2 r k) * w (ix3 (0 : Fin 3) k j)) + ∑ k : Fin 64, t1 (ix2 r k) * w (ix3 (1 : Fin 3) k j))
      + ∑ k : Fin 64, t2 (ix2 r k) * w (ix3 (2 : Fin 3) k j)) + b (ix1 j)) (Ideal.ofBits .f32 0x00000000#32)

/-- One layer's dense part as a whole array. -/
def layer (t0 t1 t2 : FVec Ideal ⟨2, ![50000, 64]⟩ .f32) (w : FVec Ideal ⟨3, ![3, 64, 64]⟩ .f32)
    (b : FVec Ideal ⟨1, ![64]⟩ .f32) : FVec Ideal ⟨2, ![50000, 64]⟩ .f32 :=
  fun i => layerAt t0 t1 t2 w b (i 0) (i 1)

/-- Entry (r, j) of h Wlin + blin. -/
def headAt (h : FVec Ideal ⟨2, ![50000, 64]⟩ .f32) (w : FVec Ideal ⟨2, ![64, 2]⟩ .f32)
    (b : FVec Ideal ⟨1, ![2]⟩ .f32) (r : Fin 50000) (j : Fin 2) : EReal :=
  (∑ k : Fin 64, h (ix2 r k) * w (ix2 k j)) + b (ix1 j)

/-- The linear head as a whole array. -/
def head (h : FVec Ideal ⟨2, ![50000, 64]⟩ .f32) (w : FVec Ideal ⟨2, ![64, 2]⟩ .f32)
    (b : FVec Ideal ⟨1, ![2]⟩ .f32) : FVec Ideal ⟨2, ![50000, 2]⟩ .f32 :=
  fun i => headAt h w b (i 0) (i 1)

/-- What one grid point computes for a layer: entry (p, q) of its 5000-row block, from the point's blocks of the three
    terms, the three 64 x 64 slabs of the weight stack (each loaded as a 1 x 64 x 64 piece) and the bias row. -/
def blockLayerAt (x0 x1 x2 : FVec Ideal ⟨2, ![5000, 64]⟩ .f32) (w0 w1 w2 : FVec Ideal ⟨3, ![1, 64, 64]⟩ .f32)
    (b : FVec Ideal ⟨1, ![64]⟩ .f32) (p : Fin 5000) (q : Fin 64) : EReal :=
  max ((((∑ k : Fin 64, x0 (ix2 p k) * w0 (ix3 (0 : Fin 1) k q)) + ∑ k : Fin 64, x1 (ix2 p k) * w1 (ix3 (0 : Fin 1) k q))
      + ∑ k : Fin 64, x2 (ix2 p k) * w2 (ix3 (0 : Fin 1) k q)) + b (ix1 q)) (Ideal.ofBits .f32 0x00000000#32)

/-- What one grid point computes for the head: entry (p, q) of its 5000-row block of h Wlin + blin. -/
def blockHeadAt (x : FVec Ideal ⟨2, ![5000, 64]⟩ .f32) (w : FVec Ideal ⟨2, ![64, 2]⟩ .f32)
    (b : FVec Ideal ⟨1, ![2]⟩ .f32) (p : Fin 5000) (q : Fin 2) : EReal :=
  (∑ k : Fin 64, x (ix2 p k) * w (ix2 k q)) + b (ix1 q)

end Cert.Dense

end
-- ==== Proof.RefDense.lean ====
/-
  The reference network's dense stages are the specification's functions.

  Each Chebyshev layer of the reference multiplies three propagated terms by the three 64 x 64 slabs of a weight
  stack (a slab is a slice of the stack along its first axis, reshaped to a matrix), adds the three products from
  left to right, adds the bias row broadcast over the 50000 rows, and takes the maximum with zero. Read at an entry
  (r, j), a product is the sum over the 64 contracted coordinates k of the term at (r, k) times the stack at
  (slab, k, j); the reshape of a 1 x 64 x 64 slice to 64 x 64 sends (a, b) to (0, a, b) because a * 64 + b splits back
  into a and b for b below 64. The sums come in the specification's own order, so nothing is rearranged.
  The head is one more product with a 64 x 2 matrix plus a broadcast bias.
-/
import proofs.«106720_j20590073217364_1_alg».proof.Proof.RefReadP
import proofs.«106720_j20590073217364_1_alg».proof.Proof.DenseSpec

noncomputable section

namespace Cert.RefDense

open Cert.ReferenceIdeal Cert.ReferenceIdeal.Gen Cert.ReferenceIdeal.ReadP Idealize.ShloMosaic Idealize.ShloMosaic.ValueIdx

/-- Entrywise multiplication of two arrays of extended reals does not depend on the order of the factors. -/
theorem mulf_comm {s : Shape} (a b : FVec Ideal s .f32) : mulf a b = mulf b a := by
  funext i
  exact mul_comm (a i) (b i)

/-! ## Layer 1 -/

/-- Slab 0 of the first weight stack at (a, b) is the stack at (0, a, b). -/
theorem slab0_l1 (w : (⟨S3x64x64, .f32⟩ : BufTy).Contents (Elt Ideal)) (a b : Fin 64) :
    val_main_v31 (F := Ideal) w (ix2 a b) = w (ix3 (0 : Fin 3) a b) := by
  rw [val_main_v31_apply, val_main_v30_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- Slab 1 of the first weight stack at (a, b) is the stack at (1, a, b). -/
theorem slab1_l1 (w : (⟨S3x64x64, .f32⟩ : BufTy).Contents (Elt Ideal)) (a b : Fin 64) :
    val_main_v47 (F := Ideal) w (ix2 a b) = w (ix3 (1 : Fin 3) a b) := by
  rw [val_main_v47_apply, val_main_v46_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- Slab 2 of the first weight stack at (a, b) is the stack at (2, a, b). -/
theorem slab2_l1 (w : (⟨S3x64x64, .f32⟩ : BufTy).Contents (Elt Ideal)) (a b : Fin 64) :
    val_main_v67 (F := Ideal) w (ix2 a b) = w (ix3 (2 : Fin 3) a b) := by
  rw [val_main_v67_apply, val_main_v66_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- The first product of layer 1 at (r, j): the input's row r against column j of slab 0. -/
theorem dot0_l1 (x0 : (⟨S50000x64, .f32⟩ : BufTy).Contents (Elt Ideal)) (x2 : (⟨S3x64x64, .f32⟩ : BufTy).Contents (Elt Ideal))
    (r : Fin 50000) (j : Fin 64) :
    val_main_v32 (F := Ideal) x0 x2 (ix2 r j) = ∑ k : Fin 64, x0 (ix2 r k) * x2 (ix3 (0 : Fin 3) k j) := by
  rw [val_main_v32_apply]
  refine Finset.sum_congr rfl fun k _ => ?_
  have el : lidx_main_v32 (ix2 r j) k = ix2 r k :=
    funext fun a => Fin.ext (by match a with | ⟨0, _⟩ => rfl | ⟨1, _⟩ => rfl)
  have er : ridx_main_v32 (ix2 r j) k = ix2 k j :=
    funext fun a => Fin.ext (by match a with | ⟨0, _⟩ => rfl | ⟨1, _⟩ => rfl)
  rw [el, er, slab0_l1]

/-- The second product of layer 1 at (r, j): row r of the once-propagated term against column j of slab 1. -/
theorem dot1_l1 (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (r : Fin 50000) (j : Fin 64) :
    val_main_v48 (F := Ideal) x0 x1 x2 (ix2 r j)
      = ∑ k : Fin 64, (val_main_v45 (F := Ideal) x0 x1) (ix2 r k) * x2 (ix3 (1 : Fin 3) k j) := by
  rw [val_main_v48_apply]
  generalize val_main_v45 (F := Ideal) x0 x1 = t
  refine Finset.sum_congr rfl fun k _ => ?_
  have el : lidx_main_v48 (ix2 r j) k = ix2 r k :=
    funext fun a => Fin.ext (by match a with | ⟨0, _⟩ => rfl | ⟨1, _⟩ => rfl)
  have er : ridx_main_v48 (ix2 r j) k = ix2 k j :=
    funext fun a => Fin.ext (by match a with | ⟨0, _⟩ => rfl | ⟨1, _⟩ => rfl)
  rw [el, er, slab1_l1]

/-- The third product of layer 1 at (r, j): row r of the twice-propagated term against column j of slab 2. -/
theorem dot2_l1 (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (r : Fin 50000) (j : Fin 64) :
    val_main_v68 (F := Ideal) x0 x1 x2 (ix2 r j)
      = ∑ k : Fin 64, (val_main_v65 (F := Ideal) x0 x1) (ix2 r k) * x2 (ix3 (2 : Fin 3) k j) := by
  rw [val_main_v68_apply]
  generalize val_main_v65 (F := Ideal) x0 x1 = t
  refine Finset.sum_congr rfl fun k _ => ?_
  have el : lidx_main_v68 (ix2 r j) k = ix2 r k :=
    funext fun a => Fin.ext (by match a with | ⟨0, _⟩ => rfl | ⟨1, _⟩ => rfl)
  have er : ridx_main_v68 (ix2 r j) k = ix2 k j :=
    funext fun a => Fin.ext (by match a with | ⟨0, _⟩ => rfl | ⟨1, _⟩ => rfl)
  rw [el, er, slab2_l1]

/-- The bias of layer 1, broadcast over the rows, at (r, j) is the bias at j. -/
theorem bias_l1 (x3 : (⟨S64, .f32⟩ : BufTy).Contents (Elt Ideal)) (r : Fin 50000) (j : Fin 64) :
    val_main_v71 (F := Ideal) x3 (ix2 r j) = x3 (ix1 j) := by
  rw [val_main_v71_apply, val_main_v70_apply]
  exact congrArg x3 (funext fun a => Fin.ext (by match a with | ⟨0, _⟩ => rfl))

/-- The array layer 1's maximum is taken against is the zero word at every entry. -/
theorem zero_l1 (i : S50000x64.Idx) :
    val_main_call1_v0 (F := Ideal) i = Ideal.ofBits .f32 0x00000000#32 := by
  rw [val_main_call1_v0_apply, val_main_call1_cst_apply, Ideal.ofBits_def]

/-- The reference's first layer is the specification's layer of the input and its two propagated terms. -/
theorem layer1_eq (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal)) :
    val_main_v73 (F := Ideal) x0 x1 x2 x3
      = Cert.Dense.layer x0 (val_main_v45 (F := Ideal) x0 x1) (val_main_v65 (F := Ideal) x0 x1) x2 x3 := by
  funext i
  obtain ⟨r, j, rfl⟩ : ∃ (r : Fin 50000) (j : Fin 64), i = ix2 r j := ⟨i 0, i 1, eq_ix2 i⟩
  rw [val_main_v73_apply, val_main_v72_apply, val_main_v69_apply, val_main_v49_apply,
    dot0_l1, dot1_l1, dot2_l1, bias_l1, zero_l1]
  generalize val_main_v45 (F := Ideal) x0 x1 = t1
  generalize val_main_v65 (F := Ideal) x0 x1 = t2
  rfl

/-! ## Layer 2 -/

/-- Slab 0 of the second weight stack at (a, b) is the stack at (0, a, b). -/
theorem slab0_l2 (w : (⟨S3x64x64, .f32⟩ : BufTy).Contents (Elt Ideal)) (a b : Fin 64) :
    val_main_v105 (F := Ideal) w (ix2 a b) = w (ix3 (0 : Fin 3) a b) := by
  rw [val_main_v105_apply, val_main_v104_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- Slab 1 of the second weight stack at (a, b) is the stack at (1, a, b). -/
theorem slab1_l2 (w : (⟨S3x64x64, .f32⟩ : BufTy).Contents (Elt Ideal)) (a b : Fin 64) :
    val_main_v121 (F := Ideal) w (ix2 a b) = w (ix3 (1 : Fin 3) a b) := by
  rw [val_main_v121_apply, val_main_v120_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- Slab 2 of the second weight stack at (a, b) is the stack at (2, a, b). -/
theorem slab2_l2 (w : (⟨S3x64x64, .f32⟩ : BufTy).Contents (Elt Ideal)) (a b : Fin 64) :
    val_main_v141 (F := Ideal) w (ix2 a b) = w (ix3 (2 : Fin 3) a b) := by
  rw [val_main_v141_apply, val_main_v140_apply]
  refine congrArg w (funext fun c => Fin.ext ?_)
  have ha := a.isLt
  have hb := b.isLt
  match c with
  | ⟨0, _⟩ => rfl
  | ⟨1, _⟩ => show (a.val * 64 + b.val) / 64 % 64 = a.val; omega
  | ⟨2, _⟩ => show (a.val * 64 + b.val) % 64 = b.val; omega

/-- The first product of layer 2 at (r, j): row r of layer 1's output against column j of slab 0. -/
theorem dot0_l2 (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (r : Fin 50000) (j : Fin 64) :
    val_main_v106 (F := Ideal) x0 x1 x2 x3 x4 (ix2 r j)
      = ∑ k : Fin 64, (val_main_v73 (F := Ideal) x0 x1 x2 x3) (ix2 r k) * x4 (ix3 (0 : Fin 3) k j) := by
  rw [val_main_v106_apply]
  generalize val_main_v73 (F := Ideal) x0 x1 x2 x3 = t
  refine Finset.sum_congr rfl fun k _ => ?_
  have el : lidx_main_v106 (ix2 r j) k = ix2 r k :=
    funext fun a => Fin.ext (by match a with | ⟨0, _⟩ => rfl | ⟨1, _⟩ => rfl)
  have er : ridx_main_v106 (ix2 r j) k = ix2 k j :=
    funext fun a => Fin.ext (by match a with | ⟨0, _⟩ => rfl | ⟨1, _⟩ => rfl)
  rw [el, er, slab0_l2]

/-- The second product of layer 2 at (r, j): row r of the once-propagated term against column j of slab 1. -/
theorem dot1_l2 (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (r : Fin 50000) (j : Fin 64) :
    val_main_v122 (F := Ideal) x0 x1 x2 x3 x4 (ix2 r j)
      = ∑ k : Fin 64, (val_main_v119 (F := Ideal) x0 x1 x2 x3) (ix2 r k) * x4 (ix3 (1 : Fin 3) k j) := by
  rw [val_main_v122_apply]
  generalize val_main_v119 (F := Ideal) x0 x1 x2 x3 = t
  refine Finset.sum_congr rfl fun k _ => ?_
  have el : lidx_main_v122 (ix2 r j) k = ix2 r k :=
    funext fun a => Fin.ext (by match a with | ⟨0, _⟩ => rfl | ⟨1, _⟩ => rfl)
  have er : ridx_main_v122 (ix2 r j) k = ix2 k j :=
    funext fun a => Fin.ext (by match a with | ⟨0, _⟩ => rfl | ⟨1, _⟩ => rfl)
  rw [el, er, slab1_l2]

/-- The third product of layer 2 at (r, j): row r of the twice-propagated term against column j of slab 2. -/
theorem dot2_l2 (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (r : Fin 50000) (j : Fin 64) :
    val_main_v142 (F := Ideal) x0 x1 x2 x3 x4 (ix2 r j)
      = ∑ k : Fin 64, (val_main_v139 (F := Ideal) x0 x1 x2 x3) (ix2 r k) * x4 (ix3 (2 : Fin 3) k j) := by
  rw [val_main_v142_apply]
  generalize val_main_v139 (F := Ideal) x0 x1 x2 x3 = t
  refine Finset.sum_congr rfl fun k _ => ?_
  have el : lidx_main_v142 (ix2 r j) k = ix2 r k :=
    funext fun a => Fin.ext (by match a with | ⟨0, _⟩ => rfl | ⟨1, _⟩ => rfl)
  have er : ridx_main_v142 (ix2 r j) k = ix2 k j :=
    funext fun a => Fin.ext (by match a with | ⟨0, _⟩ => rfl | ⟨1, _⟩ => rfl)
  rw [el, er, slab2_l2]

/-- The bias of layer 2, broadcast over the rows, at (r, j) is the bias at j. -/
theorem bias_l2 (x5 : (⟨S64, .f32⟩ : BufTy).Contents (Elt Ideal)) (r : Fin 50000) (j : Fin 64) :
    val_main_v145 (F := Ideal) x5 (ix2 r j) = x5 (ix1 j) := by
  rw [val_main_v145_apply, val_main_v144_apply]
  exact congrArg x5 (funext fun a => Fin.ext (by match a with | ⟨0, _⟩ => rfl))

/-- The array layer 2's maximum is taken against is the zero word at every entry. -/
theorem zero_l2 (i : S50000x64.Idx) :
    val_main_call3_v0 (F := Ideal) i = Ideal.ofBits .f32 0x00000000#32 := by
  rw [val_main_call3_v0_apply, val_main_call3_cst_apply, Ideal.ofBits_def]

/-- The reference's second layer is the specification's layer of the first layer's output and its two propagated terms. -/
theorem layer2_eq (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (x5 : (⟨S64, .f32⟩ : BufTy).Contents (Elt Ideal)) :
    val_main_v147 (F := Ideal) x0 x1 x2 x3 x4 x5
      = Cert.Dense.layer (val_main_v73 (F := Ideal) x0 x1 x2 x3) (val_main_v119 (F := Ideal) x0 x1 x2 x3)
          (val_main_v139 (F := Ideal) x0 x1 x2 x3) x4 x5 := by
  funext i
  obtain ⟨r, j, rfl⟩ : ∃ (r : Fin 50000) (j : Fin 64), i = ix2 r j := ⟨i 0, i 1, eq_ix2 i⟩
  rw [val_main_v147_apply, val_main_v146_apply, val_main_v143_apply, val_main_v123_apply,
    dot0_l2, dot1_l2, dot2_l2, bias_l2, zero_l2]
  generalize val_main_v73 (F := Ideal) x0 x1 x2 x3 = t0
  generalize val_main_v119 (F := Ideal) x0 x1 x2 x3 = t1
  generalize val_main_v139 (F := Ideal) x0 x1 x2 x3 = t2
  rfl

/-! ## The head -/

/-- The head's product at (r, j): row r of layer 2's output against column j of the 64 x 2 matrix. -/
theorem dot_head (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (x5 : (⟨S64, .f32⟩ : BufTy).Contents (Elt Ideal)) (x6 : (⟨S64x2, .f32⟩ : BufTy).Contents (Elt Ideal))
    (r : Fin 50000) (j : Fin 2) :
    val_main_v148 (F := Ideal) x0 x1 x2 x3 x4 x5 x6 (ix2 r j)
      = ∑ k : Fin 64, (val_main_v147 (F := Ideal) x0 x1 x2 x3 x4 x5) (ix2 r k) * x6 (ix2 k j) := by
  rw [val_main_v148_apply]
  generalize val_main_v147 (F := Ideal) x0 x1 x2 x3 x4 x5 = t
  refine Finset.sum_congr rfl fun k _ => ?_
  have el : lidx_main_v148 (ix2 r j) k = ix2 r k :=
    funext fun a => Fin.ext (by match a with | ⟨0, _⟩ => rfl | ⟨1, _⟩ => rfl)
  have er : ridx_main_v148 (ix2 r j) k = ix2 k j :=
    funext fun a => Fin.ext (by match a with | ⟨0, _⟩ => rfl | ⟨1, _⟩ => rfl)
  rw [el, er]

/-- The head's bias, broadcast over the rows, at (r, j) is the bias at j. -/
theorem bias_head (x7 : (⟨S2, .f32⟩ : BufTy).Contents (Elt Ideal)) (r : Fin 50000) (j : Fin 2) :
    val_main_v150 (F := Ideal) x7 (ix2 r j) = x7 (ix1 j) := by
  rw [val_main_v150_apply, val_main_v149_apply]
  exact congrArg x7 (funext fun a => Fin.ext (by match a with | ⟨0, _⟩ => rfl))

/-- The reference's head is the specification's head of the second layer's output. -/
theorem head_eq (x0 : (⟨S50000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S64, .f32⟩ : BufTy).Contents (Elt Ideal))
    (x4 : (⟨S3x64x64, .f32⟩ : BufTy).Contents (Elt Ideal)) (x5 : (⟨S64, .f32⟩ : BufTy).Contents (Elt Ideal)) (x6 : (⟨S64x2, .f32⟩ : BufTy).Contents (Elt Ideal)) (x7 : (⟨S2, .f32⟩ : BufTy).Contents (Elt Ideal)) :
    val_main_v151 (F := Ideal) x0 x1 x2 x3 x4 x5 x6 x7
      = Cert.Dense.head (val_main_v147 (F := Ideal) x0 x1 x2 x3 x4 x5) x6 x7 := by
  funext i
  obtain ⟨r, j, rfl⟩ : ∃ (r : Fin 50000) (j : Fin 2), i = ix2 r j := ⟨i 0, i 1, eq_ix2 i⟩
  rw [val_main_v151_apply, dot_head, bias_head]
  generalize val_main_v147 (F := Ideal) x0 x1 x2 x3 x4 x5 = h
  rfl

end Cert.RefDense

end
-- ==== Proof.Payloads.lean ====
/-
  What each kernel body computes, entry by entry, on the extended reals.

  A layer body forms three matrix products, each of a 5000 x 64 block of rows with one 64 x 64 slab of the weight
  stack, adds them left to right, adds the bias row to every row and takes the maximum with zero. The head body forms
  one product of a 5000 x 64 block with the 64 x 2 matrix and adds its bias row. On the extended reals the change of
  format in front of a product is the identity, a product into a zero accumulator read at (p, q) is the sum over the 64
  contracted coordinates k of (row p at k) times (column q at k), a slab loaded as a 1 x 64 x 64 piece and viewed as a
  64 x 64 matrix reads (k, q) at (0, k, q), a view at the same shape changes nothing, and a bias vector viewed as one
  row and repeated over the rows reads, at (p, q), the vector at q. So entry (p, q) of a body's result is the
  specification's entry (p, q) of that block.
-/
import proofs.«106720_j20590073217364_1_alg».proof.Proof.Gen.KernelIdeal.Skeleton
import proofs.«106720_j20590073217364_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-! ## The operand indices of the two products

Both products contract the left operand's axis 1 with the right operand's axis 0 and have no batch axis: at result
index i and contraction index c the left operand is read at (i 0, c) and the right one at (c, i 1). -/

theorem lhs64_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs64_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs64_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhs2_0 (i : S5000x2.Idx) (c : dot_S5000x64_S64x2_S5000x2_1_0_0_1_n_n.contr.Idx) :
    (dot_S5000x64_S64x2_S5000x2_1_0_0_1_n_n.lhsIdx i c 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs2_1 (i : S5000x2.Idx) (c : dot_S5000x64_S64x2_S5000x2_1_0_0_1_n_n.contr.Idx) :
    (dot_S5000x64_S64x2_S5000x2_1_0_0_1_n_n.lhsIdx i c 1).val = (c ⟨0, by decide⟩).val :=
  dot_S5000x64_S64x2_S5000x2_1_0_0_1_n_n.lhsIdx_val_of_single rfl i c
theorem rhs2_0 (i : S5000x2.Idx) (c : dot_S5000x64_S64x2_S5000x2_1_0_0_1_n_n.contr.Idx) :
    (dot_S5000x64_S64x2_S5000x2_1_0_0_1_n_n.rhsIdx i c 0).val = (c ⟨0, by decide⟩).val :=
  dot_S5000x64_S64x2_S5000x2_1_0_0_1_n_n.rhsIdx_val_of_single rfl i c
theorem rhs2_1 (i : S5000x2.Idx) (c : dot_S5000x64_S64x2_S5000x2_1_0_0_1_n_n.contr.Idx) :
    (dot_S5000x64_S64x2_S5000x2_1_0_0_1_n_n.rhsIdx i c 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-! ## A product into the zero accumulator, read at (p, q) -/

/-- The 5000 x 64 by 64 x 64 product at (p, q): the sum over k of a (p, k) * w (k, q). -/
theorem matmul64_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs64_0 _ _).trans hk
    | ⟨1, _⟩ => exact rhs64_1 _ _)
  rw [el, er]

/-- The 5000 x 64 by 64 x 2 product at (p, q): the sum over k of a (p, k) * w (k, q). -/
theorem matmul2_apply (a : FVec Ideal S5000x64 .bf16) (w : FVec Ideal S64x2 .bf16) (p : Fin 5000) (q : Fin 2) :
    matmul dot_S5000x64_S64x2_S5000x2_1_0_0_1_n_n none a w (constant (F := Ideal) S5000x2 .f32 0x00000000#32) (ix2 p q)
      = ∑ k : Fin 64, a (ix2 p k) * w (ix2 k q) := by
  refine (Ideal.matmul_constant_zero_apply dot_S5000x64_S64x2_S5000x2_1_0_0_1_n_n none a w (ix2 p q)).trans ?_
  rw [← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k := funext fun ax => Fin.ext (by
    match ax with
    | ⟨0, _⟩ => exact lhs2_0 _ _
    | ⟨1, _⟩ => exact (lhs2_1 _ _).trans hk)
  have er : dot_S5000x64_S64x2_S5000x2_1_0_0_1_n_n.rhsIdx (ix2 p q) ((contrEquiv1 dot_S5000x64_S64x2_S5000x2_1_0_0_1_n_n 64 rfl rfl).symm k) = ix2 k q := funext fun ax => Fin.ext (by
    match ax with
    | ⟨0, _⟩ => exact (rhs2_0 _ _).trans hk
    | ⟨1, _⟩ => exact rhs2_1 _ _)
  rw [el, er]

/-! ## One term of a layer: a block of rows times one slab of the weight stack -/

/-- A block times a slab loaded as a 1 x 64 x 64 piece, at (p, q): the sum over k of x (p, k) * w (0, k, q). -/
theorem term_apply (x : FVec Ideal S5000x64 .f32) (w : FVec Ideal S1x64x64 .f32) (p : Fin 5000) (q : Fin 64) :
    matmul dot_S5000x64_S64x64_S5000x64_1_0_0_1_n_n none (truncf .bf16 x bitsLt_bf16_f32)
        (truncf .bf16 (shapeCast S64x64 w shapeCasts_S1x64x64_S64x64) bitsLt_bf16_f32)
        (constant (F := Ideal) S5000x64 .f32 0x00000000#32) (ix2 p q)
      = ∑ k : Fin 64, x (ix2 p k) * w (ix3 (0 : Fin 1) k q) := by
  refine (matmul64_apply _ _ p q).trans ?_
  refine Finset.sum_congr rfl fun k _ => ?_
  show x (ix2 p k) * shapeCast S64x64 w shapeCasts_S1x64x64_S64x64 (ix2 k q) = _
  exact congrArg (fun t : EReal => x (ix2 p k) * t) (shapeCast_1ab_ab_apply w shapeCasts_S1x64x64_S64x64 k q)

/-- The same with the block first viewed at its own shape. -/
theorem term_cast_apply (x : FVec Ideal S5000x64 .f32) (w : FVec Ideal S1x64x64 .f32) (p : Fin 5000) (q : Fin 64) :
    matmul dot_S5000x64_S64x64_S5000x64_1_0_0_1_n_n none
        (truncf .bf16 (shapeCast S5000x64 x shapeCasts_S5000x64_S5000x64) bitsLt_bf16_f32)
        (truncf .bf16 (shapeCast S64x64 w shapeCasts_S1x64x64_S64x64) bitsLt_bf16_f32)
        (constant (F := Ideal) S5000x64 .f32 0x00000000#32) (ix2 p q)
      = ∑ k : Fin 64, x (ix2 p k) * w (ix3 (0 : Fin 1) k q) := by
  rw [shapeCast_self x shapeCasts_S5000x64_S5000x64]
  exact term_apply x w p q

/-! ## A bias vector as one row repeated over the rows -/

theorem bias64_apply (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply (shapeCast S1x64 b shapeCasts_S64_S1x64) broadcasts_S1x64_S5000x64 p q).trans
    (shapeCast_a_1a_apply b shapeCasts_S64_S1x64 (0 : Fin 1) q)

theorem bias2_apply (b : FVec Ideal S2 .f32) (p : Fin 5000) (q : Fin 2) :
    broadcastTo S5000x2 (shapeCast S1x2 b shapeCasts_S2_S1x2) broadcasts_S1x2_S5000x2 (ix2 p q) = b (ix1 q) :=
  (broadcastTo_1b_ab_apply (shapeCast S1x2 b shapeCasts_S2_S1x2) broadcasts_S1x2_S5000x2 p q).trans
    (shapeCast_a_1a_apply b shapeCasts_S2_S1x2 (0 : Fin 1) q)

/-! ## The three bodies -/

/-- Entry (p, q) of the first layer body's result is the specification's. -/
theorem layer_payload0 (x0 x1 x2 : Vec Ideal S5000x64 .f32) (w0 w1 w2 : Vec Ideal S1x64x64 .f32) (b : Vec Ideal S64 .f32)
    (p : Fin 5000) (q : Fin 64) :
    Gen.k0_pay1 (F := Ideal) x0 x1 x2 w0 w1 w2 b (ix2 p q) = Cert.Dense.blockLayerAt x0 x1 x2 w0 w1 w2 b p q := by
  unfold Gen.k0_pay1 Cert.Dense.blockLayerAt
  refine (maximumf_apply _ _ (ix2 p q)).trans ?_
  refine congrArg₂ (fun s t : EReal => max s t) ?_ rfl
  refine (addf_apply _ _ (ix2 p q)).trans ?_
  refine congrArg₂ (fun s t : EReal => s + t) ?_ (bias64_apply b p q)
  refine (addf_apply _ _ (ix2 p q)).trans ?_
  refine congrArg₂ (fun s t : EReal => s + t) ?_ (term_cast_apply x2 w2 p q)
  refine (addf_apply _ _ (ix2 p q)).trans ?_
  exact congrArg₂ (fun s t : EReal => s + t) (term_apply x0 w0 p q) (term_cast_apply x1 w1 p q)

/-- Entry (p, q) of the second layer body's result is the specification's. -/
theorem layer_payload1 (x0 x1 x2 : Vec Ideal S5000x64 .f32) (w0 w1 w2 : Vec Ideal S1x64x64 .f32) (b : Vec Ideal S64 .f32)
    (p : Fin 5000) (q : Fin 64) :
    Gen.k1_pay1 (F := Ideal) x0 x1 x2 w0 w1 w2 b (ix2 p q) = Cert.Dense.blockLayerAt x0 x1 x2 w0 w1 w2 b p q := by
  unfold Gen.k1_pay1 Cert.Dense.blockLayerAt
  refine (maximumf_apply _ _ (ix2 p q)).trans ?_
  refine congrArg₂ (fun s t : EReal => max s t) ?_ rfl
  refine (addf_apply _ _ (ix2 p q)).trans ?_
  refine congrArg₂ (fun s t : EReal => s + t) ?_ (bias64_apply b p q)
  refine (addf_apply _ _ (ix2 p q)).trans ?_
  refine congrArg₂ (fun s t : EReal => s + t) ?_ (term_cast_apply x2 w2 p q)
  refine (addf_apply _ _ (ix2 p q)).trans ?_
  exact congrArg₂ (fun s t : EReal => s + t) (term_cast_apply x0 w0 p q) (term_cast_apply x1 w1 p q)

/-- Entry (p, q) of the head body's result is the specification's. -/
theorem head_payload (x : Vec Ideal S5000x64 .f32) (w : Vec Ideal S64x2 .f32) (b : Vec Ideal S2 .f32) (p : Fin 5000) (q : Fin 2) :
    Gen.k2_pay1 (F := Ideal) x w b (ix2 p q) = Cert.Dense.blockHeadAt x w b p q := by
  unfold Gen.k2_pay1 Cert.Dense.blockHeadAt
  refine (addf_apply _ _ (ix2 p q)).trans ?_
  refine congrArg₂ (fun s t : EReal => s + t) ?_ (bias2_apply b p q)
  rw [shapeCast_self x shapeCasts_S5000x64_S5000x64]
  exact matmul2_apply (truncf .bf16 x bitsLt_bf16_f32) (truncf .bf16 w bitsLt_bf16_f32) p q

end Cert.KernelIdeal.Payloads

end
-- ==== Proof.Blocks.lean ====
/-
  From one grid point's block to the whole array, for the three launches of the kernel program.

  Each launch runs over ten grid points. Point t holds rows 5000 t .. 5000 t + 4999 of every array that is cut by rows
  (the three terms and the output of a layer; the input and the output of the head) and the whole of every small
  operand (the stack of three 64 x 64 matrices and the bias row; the 64 x 2 matrix and the bias pair). So entry (y0, y1)
  of a row block at point t is entry (5000 t + y0, y1) of its array, the piece of the stack loaded as matrix m is the
  stack at (m, ., .), and what the point computes at (y0, y1) — the block form of the layer or of the head — is the
  whole-array form at (5000 t + y0, y1): the two are the same sums over the 64 contracted coordinates, term by term.
  Row r of the output is written by the point r / 5000 and by no other, the ten blocks cover the array, and therefore
  the array after the launch is the layer (the head) of the arrays the launch found, whatever those were.
-/
import proofs.«106720_j20590073217364_1_alg».proof.Proof.Gen.KernelIdeal.Frame
import proofs.«106720_j20590073217364_1_alg».proof.Proof.DenseSpec
import proofs.«106720_j20590073217364_1_alg».proof.Proof.Payloads
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/- The contents of the core's buffers when a launch begins: arbitrary. -/
variable (V : (c : Dev nD) → (b : Ref sig .tc) → Buf (Elt Ideal) ((c : Thread nD τ).loc b))

/-- Offsets written as a list of zeros are the zero function (rank two, rank one). -/
theorem zeros2 : (![0, 0] : Fin 2 → Nat) = fun _ => 0 := funext fun a => by fin_cases a <;> rfl
theorem zeros1 : (![0] : Fin 1 → Nat) = fun _ => 0 := funext fun a => by fin_cases a <;> rfl

/-! ## The layer kernel, first launch

Ten grid points, point t holding rows 5000 t .. 5000 t + 4999 of each of the three terms and of the output; the
weight stack and the bias row are held whole at every point. -/

/-- The block index of every window at every grid point: the three terms and the output move down the rows with the
    point, their column block fixed; the weight stack and the bias never move. -/
theorem grid_index_a : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- Entry (y0, y1) of the first term's block at point t is entry (5000 t + y0, y1) of the first term. -/
theorem term0_block_a (c : Dev nD) (t : Fin cfg0.N) (y : S5000x64.Idx) (i : S50000x64.Idx)
    (h0 : (i 0).val = 5000 * t.val + (y 0).val) (h1 : (i 1).val = (y 1).val) :
    (iblk0 V c 0 t : Vec Ideal S5000x64 .f32) y = (V c (Pipeline.arrRef spec0 0) : Vec Ideal S50000x64 .f32) i := by
  obtain ⟨e0, e1, -⟩ := grid_index_a t
  show (V c (Pipeline.arrRef spec0 0) : Vec Ideal S50000x64 .f32) (((cfg0.win 0).blk t).view.emb y) = _
  refine congrArg _ ?_
  funext a; apply Fin.ext
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The same for the second term. -/
theorem term1_block_a (c : Dev nD) (t : Fin cfg0.N) (y : S5000x64.Idx) (i : S50000x64.Idx)
    (h0 : (i 0).val = 5000 * t.val + (y 0).val) (h1 : (i 1).val = (y 1).val) :
    (iblk0 V c 1 t : Vec Ideal S5000x64 .f32) y = (V c (Pipeline.arrRef spec0 1) : Vec Ideal S50000x64 .f32) i := by
  obtain ⟨-, -, e0, e1, -⟩ := grid_index_a t
  show (V c (Pipeline.arrRef spec0 1) : Vec Ideal S50000x64 .f32) (((cfg0.win 1).blk t).view.emb y) = _
  refine congrArg _ ?_
  funext a; apply Fin.ext
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- The same for the third term. -/
theorem term2_block_a (c : Dev nD) (t : Fin cfg0.N) (y : S5000x64.Idx) (i : S50000x64.Idx)
    (h0 : (i 0).val = 5000 * t.val + (y 0).val) (h1 : (i 1).val = (y 1).val) :
    (iblk0 V c 2 t : Vec Ideal S5000x64 .f32) y = (V c (Pipeline.arrRef spec0 2) : Vec Ideal S50000x64 .f32) i := by
  obtain ⟨-, -, -, -, e0, e1, -⟩ := grid_index_a t
  show (V c (Pipeline.arrRef spec0 2) : Vec Ideal S50000x64 .f32) (((cfg0.win 2).blk t).view.emb y) = _
  refine congrArg _ ?_
  funext a; apply Fin.ext
  match a with
  | ⟨0, _⟩ => show win0_2.index t (0 : Fin 2) * 5000 + 1 * (y 0).val = (i 0).val; omega
  | ⟨1, _⟩ => show win0_2.index t (1 : Fin 2) * 64 + 1 * (y 1).val = (i 1).val; omega

/-- The weight stack's block at any point is the whole stack. -/
theorem weights_block_a (c : Dev nD) (t : Fin cfg0.N) :
    (iblk0 V c 3 t : Vec Ideal S3x64x64 .f32) = (V c (Pipeline.arrRef spec0 3) : Vec Ideal S3x64x64 .f32) := by
  obtain ⟨-, -, -, -, -, -, e0, e1, e2, -⟩ := grid_index_a t
  funext y
  show (V c (Pipeline.arrRef spec0 3) : Vec Ideal S3x64x64 .f32) (((cfg0.win 3).blk t).view.emb y) = _
  refine congrArg _ ?_
  funext a; apply Fin.ext
  match a with
  | ⟨0, _⟩ => show win0_3.index t (0 : Fin 3) * 3 + 1 * (y 0).val = (y 0).val; omega
  | ⟨1, _⟩ => show win0_3.index t (1 : Fin 3) * 64 + 1 * (y 1).val = (y 1).val; omega
  | ⟨2, _⟩ => show win0_3.index t (2 : Fin 3) * 64 + 1 * (y 2).val = (y 2).val; omega

/-- The bias row's block at any point is the whole row. -/
theorem bias_block_a (c : Dev nD) (t : Fin cfg0.N) :
    (iblk0 V c 4 t : Vec Ideal S64 .f32) = (V c (Pipeline.arrRef spec0 4) : Vec Ideal S64 .f32) := by
  obtain ⟨-, -, -, -, -, -, -, -, -, e0, -⟩ := grid_index_a t
  funext y
  show (V c (Pipeline.arrRef spec0 4) : Vec Ideal S64 .f32) (((cfg0.win 4).blk t).view.emb y) = _
  refine congrArg _ ?_
  funext a; apply Fin.ext
  match a with
  | ⟨0, _⟩ => show win0_4.index t (0 : Fin 1) * 64 + 1 * (y 0).val = (y 0).val; omega

/-- Entry (y0, y1) of the output's block at point t sits at (5000 t + y0, y1) of the output array. -/
theorem out_block_a (t : Fin cfg0.N) (y : S5000x64.Idx) :
    ((((cfg0.win 5).blk t).view.emb y : S50000x64.Idx) 0).val = 5000 * t.val + (y 0).val
    ∧ ((((cfg0.win 5).blk t).view.emb y : S50000x64.Idx) 1).val = (y 1).val := by
  obtain ⟨-, -, -, -, -, -, -, -, -, -, e0, e1⟩ := grid_index_a t
  constructor
  · show win0_5.index t (0 : Fin 2) * 5000 + 1 * (y 0).val = _; omega
  · show win0_5.index t (1 : Fin 2) * 64 + 1 * (y 1).val = _; omega

/-- The three 1 x 64 x 64 pieces loaded from the weight stack are its three matrices: piece m at (0, k, q) is the stack
    at (m, k, q). -/
theorem slab0_a (W : Vec Ideal S3x64x64 .f32) (k q : Fin 64) :
    View.ld W r0_1 (ix3 (0 : Fin 1) k q) = W (ix3 (0 : Fin 3) k q) := by
  show W (r0_1.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

theorem slab1_a (W : Vec Ideal S3x64x64 .f32) (k q : Fin 64) :
    View.ld W r0_2 (ix3 (0 : Fin 1) k q) = W (ix3 (1 : Fin 3) k q) := by
  show W (r0_2.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

theorem slab2_a (W : Vec Ideal S3x64x64 .f32) (k q : Fin 64) :
    View.ld W r0_3 (ix3 (0 : Fin 1) k q) = W (ix3 (2 : Fin 3) k q) := by
  show W (r0_3.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

/-- One entry of what a point computes is the layer's entry of the whole arrays, as soon as the point's blocks of the
    terms agree with the terms along the entry's row, the three pieces are the stack's matrices, and the column is the
    same. Everything is a variable here; the blocks of a grid point are put in afterwards. -/
theorem layer_point_a (x0 x1 x2 : Vec Ideal S5000x64 .f32) (w0 w1 w2 : Vec Ideal S1x64x64 .f32)
    (W : Vec Ideal S3x64x64 .f32) (B : Vec Ideal S64 .f32)
    (T0 T1 T2 : Vec Ideal S50000x64 .f32) (j : S5000x64.Idx) (i : S50000x64.Idx)
    (e0 : ∀ k : Fin 64, x0 (ix2 (j 0) k) = T0 (ix2 (i 0) k))
    (e1 : ∀ k : Fin 64, x1 (ix2 (j 0) k) = T1 (ix2 (i 0) k))
    (e2 : ∀ k : Fin 64, x2 (ix2 (j 0) k) = T2 (ix2 (i 0) k))
    (hw0 : ∀ k q : Fin 64, w0 (ix3 (0 : Fin 1) k q) = W (ix3 (0 : Fin 3) k q))
    (hw1 : ∀ k q : Fin 64, w1 (ix3 (0 : Fin 1) k q) = W (ix3 (1 : Fin 3) k q))
    (hw2 : ∀ k q : Fin 64, w2 (ix3 (0 : Fin 1) k q) = W (ix3 (2 : Fin 3) k q))
    (hq : (i 1).val = (j 1).val) :
    k0_pay1 (F := Ideal) x0 x1 x2 w0 w1 w2 B j = Cert.Dense.layer T0 T1 T2 W B i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hq
  have s0 : ∀ k : Fin 64, x0 (ix2 p k) = T0 (ix2 r k) := e0
  have s1 : ∀ k : Fin 64, x1 (ix2 p k) = T1 (ix2 r k) := e1
  have s2 : ∀ k : Fin 64, x2 (ix2 p k) = T2 (ix2 r k) := e2
  rw [Payloads.layer_payload0]
  show Cert.Dense.blockLayerAt x0 x1 x2 w0 w1 w2 B p s = Cert.Dense.layerAt T0 T1 T2 W B r s
  unfold Cert.Dense.blockLayerAt Cert.Dense.layerAt
  simp only [s0, s1, s2, hw0, hw1, hw2]

set_option maxHeartbeats 1000000 in
/-- What point t writes back is its block of the layer of the whole arrays. -/
theorem flushed_a (c : Dev nD) (t : Fin cfg0.N) :
    (dat0 (F := Ideal) V c).flushed 5 t = ((cfg0.win 5).blk t).view.read (Elt Ideal)
      (Cert.Dense.layer (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S64) zeros1]
  rw [weights_block_a V c t, bias_block_a V c t]
  generalize hG : Cert.Dense.layer (V c (Pipeline.arrRef spec0 0)) (V c (Pipeline.arrRef spec0 1)) (V c (Pipeline.arrRef spec0 2))
      (V c (Pipeline.arrRef spec0 3)) (V c (Pipeline.arrRef spec0 4)) = G
  generalize hP : k0_pay1 (F := Ideal) (iblk0 V c 0 t) (iblk0 V c 1 t) (iblk0 V c 2 t)
      (View.ld (V c (Pipeline.arrRef spec0 3) : Vec Ideal S3x64x64 .f32) r0_1)
      (View.ld (V c (Pipeline.arrRef spec0 3) : Vec Ideal S3x64x64 .f32) r0_2)
      (View.ld (V c (Pipeline.arrRef spec0 3) : Vec Ideal S3x64x64 .f32) r0_3)
      (V c (Pipeline.arrRef spec0 4)) = P
  funext j
  show P j = G (((cfg0.win 5).blk t).view.emb j)
  rw [← hP, ← hG]
  obtain ⟨o0, o1⟩ := out_block_a t j
  exact layer_point_a (iblk0 V c 0 t) (iblk0 V c 1 t) (iblk0 V c 2 t)
    (View.ld (V c (Pipeline.arrRef spec0 3) : Vec Ideal S3x64x64 .f32) r0_1)
    (View.ld (V c (Pipeline.arrRef spec0 3) : Vec Ideal S3x64x64 .f32) r0_2)
    (View.ld (V c (Pipeline.arrRef spec0 3) : Vec Ideal S3x64x64 .f32) r0_3)
    (V c (Pipeline.arrRef spec0 3)) (V c (Pipeline.arrRef spec0 4))
    (V c (Pipeline.arrRef spec0 0)) (V c (Pipeline.arrRef spec0 1)) (V c (Pipeline.arrRef spec0 2))
    j (((cfg0.win 5).blk t).view.emb j)
    (fun k => term0_block_a V c t (ix2 (j 0) k) (ix2 ((((cfg0.win 5).blk t).view.emb j : S50000x64.Idx) 0) k) o0 rfl)
    (fun k => term1_block_a V c t (ix2 (j 0) k) (ix2 ((((cfg0.win 5).blk t).view.emb j : S50000x64.Idx) 0) k) o0 rfl)
    (fun k => term2_block_a V c t (ix2 (j 0) k) (ix2 ((((cfg0.win 5).blk t).view.emb j : S50000x64.Idx) 0) k) o0 rfl)
    (slab0_a _) (slab1_a _) (slab2_a _) o1

/-- An index of the output array is in point t's block exactly when each coordinate lies in the block's range. -/
theorem mem_out_block_a (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v59).slice (win0_5.rect t)).set ↔ _
  rw [View.set_slice_whole, Rect.mem_set_unit]
  exact Iff.rfl

/-- Row r of the output is written by the point r / 5000: the ten blocks cover the array. -/
theorem out_cover_a (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := grid_index_a t
  refine ⟨t, flush0_5 t, ?_⟩
  rw [mem_out_block_a]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the launch the output array is the layer of the arrays the launch found. -/
theorem region0_array (c : Dev nD) :
    (dat0 (F := Ideal) V c).arrAt 5 cfg0.N
      = Cert.Dense.layer (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed_a V c t) out_cover_a

/-! ## The layer kernel, second launch

Ten grid points, point t holding rows 5000 t .. 5000 t + 4999 of each of the three terms and of the output; the
weight stack and the bias row are held whole at every point. -/

/-- The block index of every window at every grid point: the three terms and the output move down the rows with the
    point, their column block fixed; the weight stack and the bias never move. -/
theorem grid_index_b : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = t.val ∧ win1_5.index t (1 : Fin 2) = 0 :=
  (by decide +kernel : ∀ t : Fin grid1.N, _)

/-- Entry (y0, y1) of the first term's block at point t is entry (5000 t + y0, y1) of the first term. -/
theorem term0_block_b (c : Dev nD) (t : Fin cfg1.N) (y : S5000x64.Idx) (i : S50000x64.Idx)
    (h0 : (i 0).val = 5000 * t.val + (y 0).val) (h1 : (i 1).val = (y 1).val) :
    (iblk1 V c 0 t : Vec Ideal S5000x64 .f32) y = (V c (Pipeline.arrRef spec1 0) : Vec Ideal S50000x64 .f32) i := by
  obtain ⟨e0, e1, -⟩ := grid_index_b t
  show (V c (Pipeline.arrRef spec1 0) : Vec Ideal S50000x64 .f32) (((cfg1.win 0).blk t).view.emb y) = _
  refine congrArg _ ?_
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The same for the second term. -/
theorem term1_block_b (c : Dev nD) (t : Fin cfg1.N) (y : S5000x64.Idx) (i : S50000x64.Idx)
    (h0 : (i 0).val = 5000 * t.val + (y 0).val) (h1 : (i 1).val = (y 1).val) :
    (iblk1 V c 1 t : Vec Ideal S5000x64 .f32) y = (V c (Pipeline.arrRef spec1 1) : Vec Ideal S50000x64 .f32) i := by
  obtain ⟨-, -, e0, e1, -⟩ := grid_index_b t
  show (V c (Pipeline.arrRef spec1 1) : Vec Ideal S50000x64 .f32) (((cfg1.win 1).blk t).view.emb y) = _
  refine congrArg _ ?_
  funext a; apply Fin.ext
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The same for the third term. -/
theorem term2_block_b (c : Dev nD) (t : Fin cfg1.N) (y : S5000x64.Idx) (i : S50000x64.Idx)
    (h0 : (i 0).val = 5000 * t.val + (y 0).val) (h1 : (i 1).val = (y 1).val) :
    (iblk1 V c 2 t : Vec Ideal S5000x64 .f32) y = (V c (Pipeline.arrRef spec1 2) : Vec Ideal S50000x64 .f32) i := by
  obtain ⟨-, -, -, -, e0, e1, -⟩ := grid_index_b t
  show (V c (Pipeline.arrRef spec1 2) : Vec Ideal S50000x64 .f32) (((cfg1.win 2).blk t).view.emb y) = _
  refine congrArg _ ?_
  funext a; apply Fin.ext
  match a with
  | ⟨0, _⟩ => show win1_2.index t (0 : Fin 2) * 5000 + 1 * (y 0).val = (i 0).val; omega
  | ⟨1, _⟩ => show win1_2.index t (1 : Fin 2) * 64 + 1 * (y 1).val = (i 1).val; omega

/-- The weight stack's block at any point is the whole stack. -/
theorem weights_block_b (c : Dev nD) (t : Fin cfg1.N) :
    (iblk1 V c 3 t : Vec Ideal S3x64x64 .f32) = (V c (Pipeline.arrRef spec1 3) : Vec Ideal S3x64x64 .f32) := by
  obtain ⟨-, -, -, -, -, -, e0, e1, e2, -⟩ := grid_index_b t
  funext y
  show (V c (Pipeline.arrRef spec1 3) : Vec Ideal S3x64x64 .f32) (((cfg1.win 3).blk t).view.emb y) = _
  refine congrArg _ ?_
  funext a; apply Fin.ext
  match a with
  | ⟨0, _⟩ => show win1_3.index t (0 : Fin 3) * 3 + 1 * (y 0).val = (y 0).val; omega
  | ⟨1, _⟩ => show win1_3.index t (1 : Fin 3) * 64 + 1 * (y 1).val = (y 1).val; omega
  | ⟨2, _⟩ => show win1_3.index t (2 : Fin 3) * 64 + 1 * (y 2).val = (y 2).val; omega

/-- The bias row's block at any point is the whole row. -/
theorem bias_block_b (c : Dev nD) (t : Fin cfg1.N) :
    (iblk1 V c 4 t : Vec Ideal S64 .f32) = (V c (Pipeline.arrRef spec1 4) : Vec Ideal S64 .f32) := by
  obtain ⟨-, -, -, -, -, -, -, -, -, e0, -⟩ := grid_index_b t
  funext y
  show (V c (Pipeline.arrRef spec1 4) : Vec Ideal S64 .f32) (((cfg1.win 4).blk t).view.emb y) = _
  refine congrArg _ ?_
  funext a; apply Fin.ext
  match a with
  | ⟨0, _⟩ => show win1_4.index t (0 : Fin 1) * 64 + 1 * (y 0).val = (y 0).val; omega

/-- Entry (y0, y1) of the output's block at point t sits at (5000 t + y0, y1) of the output array. -/
theorem out_block_b (t : Fin cfg1.N) (y : S5000x64.Idx) :
    ((((cfg1.win 5).blk t).view.emb y : S50000x64.Idx) 0).val = 5000 * t.val + (y 0).val
    ∧ ((((cfg1.win 5).blk t).view.emb y : S50000x64.Idx) 1).val = (y 1).val := by
  obtain ⟨-, -, -, -, -, -, -, -, -, -, e0, e1⟩ := grid_index_b t
  constructor
  · show win1_5.index t (0 : Fin 2) * 5000 + 1 * (y 0).val = _; omega
  · show win1_5.index t (1 : Fin 2) * 64 + 1 * (y 1).val = _; omega

/-- The three 1 x 64 x 64 pieces loaded from the weight stack are its three matrices: piece m at (0, k, q) is the stack
    at (m, k, q). -/
theorem slab0_b (W : Vec Ideal S3x64x64 .f32) (k q : Fin 64) :
    View.ld W r1_1 (ix3 (0 : Fin 1) k q) = W (ix3 (0 : Fin 3) k q) := by
  show W (r1_1.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

theorem slab1_b (W : Vec Ideal S3x64x64 .f32) (k q : Fin 64) :
    View.ld W r1_2 (ix3 (0 : Fin 1) k q) = W (ix3 (1 : Fin 3) k q) := by
  show W (r1_2.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

theorem slab2_b (W : Vec Ideal S3x64x64 .f32) (k q : Fin 64) :
    View.ld W r1_3 (ix3 (0 : Fin 1) k q) = W (ix3 (2 : Fin 3) k q) := by
  show W (r1_3.idx (ix3 (0 : Fin 1) k q)) = _
  refine congrArg W ?_
  funext a; apply Fin.ext
  match a with
  | ⟨0, _⟩ => rfl
  | ⟨1, _⟩ => show 0 + 1 * k.val = k.val; omega
  | ⟨2, _⟩ => show 0 + 1 * q.val = q.val; omega

/-- One entry of what a point computes is the layer's entry of the whole arrays, as soon as the point's blocks of the
    terms agree with the terms along the entry's row, the three pieces are the stack's matrices, and the column is the
    same. Everything is a variable here; the blocks of a grid point are put in afterwards. -/
theorem layer_point_b (x0 x1 x2 : Vec Ideal S5000x64 .f32) (w0 w1 w2 : Vec Ideal S1x64x64 .f32)
    (W : Vec Ideal S3x64x64 .f32) (B : Vec Ideal S64 .f32)
    (T0 T1 T2 : Vec Ideal S50000x64 .f32) (j : S5000x64.Idx) (i : S50000x64.Idx)
    (e0 : ∀ k : Fin 64, x0 (ix2 (j 0) k) = T0 (ix2 (i 0) k))
    (e1 : ∀ k : Fin 64, x1 (ix2 (j 0) k) = T1 (ix2 (i 0) k))
    (e2 : ∀ k : Fin 64, x2 (ix2 (j 0) k) = T2 (ix2 (i 0) k))
    (hw0 : ∀ k q : Fin 64, w0 (ix3 (0 : Fin 1) k q) = W (ix3 (0 : Fin 3) k q))
    (hw1 : ∀ k q : Fin 64, w1 (ix3 (0 : Fin 1) k q) = W (ix3 (1 : Fin 3) k q))
    (hw2 : ∀ k q : Fin 64, w2 (ix3 (0 : Fin 1) k q) = W (ix3 (2 : Fin 3) k q))
    (hq : (i 1).val = (j 1).val) :
    k1_pay1 (F := Ideal) x0 x1 x2 w0 w1 w2 B j = Cert.Dense.layer T0 T1 T2 W B i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hq
  have s0 : ∀ k : Fin 64, x0 (ix2 p k) = T0 (ix2 r k) := e0
  have s1 : ∀ k : Fin 64, x1 (ix2 p k) = T1 (ix2 r k) := e1
  have s2 : ∀ k : Fin 64, x2 (ix2 p k) = T2 (ix2 r k) := e2
  rw [Payloads.layer_payload1]
  show Cert.Dense.blockLayerAt x0 x1 x2 w0 w1 w2 B p s = Cert.Dense.layerAt T0 T1 T2 W B r s
  unfold Cert.Dense.blockLayerAt Cert.Dense.layerAt
  simp only [s0, s1, s2, hw0, hw1, hw2]

set_option maxHeartbeats 1000000 in
/-- What point t writes back is its block of the layer of the whole arrays. -/
theorem flushed_b (c : Dev nD) (t : Fin cfg1.N) :
    (dat1 (F := Ideal) V c).flushed 5 t = ((cfg1.win 5).blk t).view.read (Elt Ideal)
      (Cert.Dense.layer (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S64) zeros1]
  rw [weights_block_b V c t, bias_block_b V c t]
  generalize hG : Cert.Dense.layer (V c (Pipeline.arrRef spec1 0)) (V c (Pipeline.arrRef spec1 1)) (V c (Pipeline.arrRef spec1 2))
      (V c (Pipeline.arrRef spec1 3)) (V c (Pipeline.arrRef spec1 4)) = G
  generalize hP : k1_pay1 (F := Ideal) (iblk1 V c 0 t) (iblk1 V c 1 t) (iblk1 V c 2 t)
      (View.ld (V c (Pipeline.arrRef spec1 3) : Vec Ideal S3x64x64 .f32) r1_1)
      (View.ld (V c (Pipeline.arrRef spec1 3) : Vec Ideal S3x64x64 .f32) r1_2)
      (View.ld (V c (Pipeline.arrRef spec1 3) : Vec Ideal S3x64x64 .f32) r1_3)
      (V c (Pipeline.arrRef spec1 4)) = P
  funext j
  show P j = G (((cfg1.win 5).blk t).view.emb j)
  rw [← hP, ← hG]
  obtain ⟨o0, o1⟩ := out_block_b t j
  exact layer_point_b (iblk1 V c 0 t) (iblk1 V c 1 t) (iblk1 V c 2 t)
    (View.ld (V c (Pipeline.arrRef spec1 3) : Vec Ideal S3x64x64 .f32) r1_1)
    (View.ld (V c (Pipeline.arrRef spec1 3) : Vec Ideal S3x64x64 .f32) r1_2)
    (View.ld (V c (Pipeline.arrRef spec1 3) : Vec Ideal S3x64x64 .f32) r1_3)
    (V c (Pipeline.arrRef spec1 3)) (V c (Pipeline.arrRef spec1 4))
    (V c (Pipeline.arrRef spec1 0)) (V c (Pipeline.arrRef spec1 1)) (V c (Pipeline.arrRef spec1 2))
    j (((cfg1.win 5).blk t).view.emb j)
    (fun k => term0_block_b V c t (ix2 (j 0) k) (ix2 ((((cfg1.win 5).blk t).view.emb j : S50000x64.Idx) 0) k) o0 rfl)
    (fun k => term1_block_b V c t (ix2 (j 0) k) (ix2 ((((cfg1.win 5).blk t).view.emb j : S50000x64.Idx) 0) k) o0 rfl)
    (fun k => term2_block_b V c t (ix2 (j 0) k) (ix2 ((((cfg1.win 5).blk t).view.emb j : S50000x64.Idx) 0) k) o0 rfl)
    (slab0_b _) (slab1_b _) (slab2_b _) o1

/-- An index of the output array is in point t's block exactly when each coordinate lies in the block's range. -/
theorem mem_out_block_b (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v89).slice (win1_5.rect t)).set ↔ _
  rw [View.set_slice_whole, Rect.mem_set_unit]
  exact Iff.rfl

/-- Row r of the output is written by the point r / 5000: the ten blocks cover the array. -/
theorem out_cover_b (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e0, e1⟩ := grid_index_b t
  refine ⟨t, flush1_5 t, ?_⟩
  rw [mem_out_block_b]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the launch the output array is the layer of the arrays the launch found. -/
theorem region1_array (c : Dev nD) :
    (dat1 (F := Ideal) V c).arrAt 5 cfg1.N
      = Cert.Dense.layer (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_b V c t) out_cover_b

/-! ## The linear head

Ten grid points, point t holding rows 5000 t .. 5000 t + 4999 of the input and of the output; the 64 x 2 matrix and the
bias pair are held whole at every point. -/

/-- The block index of every window at every grid point. -/
theorem grid_index_h : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry (y0, y1) of the input's block at point t is entry (5000 t + y0, y1) of the input. -/
theorem input_block_h (c : Dev nD) (t : Fin cfg2.N) (y : S5000x64.Idx) (i : S50000x64.Idx)
    (h0 : (i 0).val = 5000 * t.val + (y 0).val) (h1 : (i 1).val = (y 1).val) :
    (iblk2 V c 0 t : Vec Ideal S5000x64 .f32) y = (V c (Pipeline.arrRef spec2 0) : Vec Ideal S50000x64 .f32) i := by
  obtain ⟨e0, e1, -⟩ := grid_index_h t
  show (V c (Pipeline.arrRef spec2 0) : Vec Ideal S50000x64 .f32) (((cfg2.win 0).blk t).view.emb y) = _
  refine congrArg _ ?_
  funext a; apply Fin.ext
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The matrix's block at any point is the whole matrix. -/
theorem weights_block_h (c : Dev nD) (t : Fin cfg2.N) :
    (iblk2 V c 1 t : Vec Ideal S64x2 .f32) = (V c (Pipeline.arrRef spec2 1) : Vec Ideal S64x2 .f32) := by
  obtain ⟨-, -, e0, e1, -⟩ := grid_index_h t
  funext y
  show (V c (Pipeline.arrRef spec2 1) : Vec Ideal S64x2 .f32) (((cfg2.win 1).blk t).view.emb y) = _
  refine congrArg _ ?_
  funext a; apply Fin.ext
  match a with
  | ⟨0, _⟩ => show win2_1.index t (0 : Fin 2) * 64 + 1 * (y 0).val = (y 0).val; omega
  | ⟨1, _⟩ => show win2_1.index t (1 : Fin 2) * 2 + 1 * (y 1).val = (y 1).val; omega

/-- The bias pair's block at any point is the whole pair. -/
theorem bias_block_h (c : Dev nD) (t : Fin cfg2.N) :
    (iblk2 V c 2 t : Vec Ideal S2 .f32) = (V c (Pipeline.arrRef spec2 2) : Vec Ideal S2 .f32) := by
  obtain ⟨-, -, -, -, e0, -⟩ := grid_index_h t
  funext y
  show (V c (Pipeline.arrRef spec2 2) : Vec Ideal S2 .f32) (((cfg2.win 2).blk t).view.emb y) = _
  refine congrArg _ ?_
  funext a; apply Fin.ext
  match a with
  | ⟨0, _⟩ => show win2_2.index t (0 : Fin 1) * 2 + 1 * (y 0).val = (y 0).val; omega

/-- Entry (y0, y1) of the output's block at point t sits at (5000 t + y0, y1) of the output array. -/
theorem out_block_h (t : Fin cfg2.N) (y : S5000x2.Idx) :
    ((((cfg2.win 3).blk t).view.emb y : S50000x2.Idx) 0).val = 5000 * t.val + (y 0).val
    ∧ ((((cfg2.win 3).blk t).view.emb y : S50000x2.Idx) 1).val = (y 1).val := by
  obtain ⟨-, -, -, -, -, e0, e1⟩ := grid_index_h t
  constructor
  · show win2_3.index t (0 : Fin 2) * 5000 + 1 * (y 0).val = _; omega
  · show win2_3.index t (1 : Fin 2) * 2 + 1 * (y 1).val = _; omega

/-- One entry of what a point computes is the head's entry of the whole arrays, as soon as the point's block of the
    input agrees with the input along the entry's row and the column is the same. -/
theorem head_point (x : Vec Ideal S5000x64 .f32) (W : Vec Ideal S64x2 .f32) (B : Vec Ideal S2 .f32)
    (H : Vec Ideal S50000x64 .f32) (j : S5000x2.Idx) (i : S50000x2.Idx)
    (e : ∀ k : Fin 64, x (ix2 (j 0) k) = H (ix2 (i 0) k))
    (hq : (i 1).val = (j 1).val) :
    k2_pay1 (F := Ideal) x W B j = Cert.Dense.head H W B i := by
  obtain ⟨p, q, rfl⟩ : ∃ (p : Fin 5000) (q : Fin 2), j = ix2 p q := ⟨j 0, j 1, eq_ix2 j⟩
  obtain ⟨r, s, rfl⟩ : ∃ (r : Fin 50000) (s : Fin 2), i = ix2 r s := ⟨i 0, i 1, eq_ix2 i⟩
  obtain rfl : s = q := Fin.ext hq
  have s0 : ∀ k : Fin 64, x (ix2 p k) = H (ix2 r k) := e
  rw [Payloads.head_payload]
  show Cert.Dense.blockHeadAt x W B p s = Cert.Dense.headAt H W B r s
  unfold Cert.Dense.blockHeadAt Cert.Dense.headAt
  simp only [s0]

set_option maxHeartbeats 1000000 in
/-- What point t writes back is its block of the head of the whole arrays. -/
theorem flushed_h (c : Dev nD) (t : Fin cfg2.N) :
    (dat2 (F := Ideal) V c).flushed 3 t = ((cfg2.win 3).blk t).view.read (Elt Ideal)
      (Cert.Dense.head (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeros2]
  simp only [View.ld_unit_zero (S := S5000x64) zeros2, View.ld_unit_zero (S := S64x2) zeros2,
    View.ld_unit_zero (S := S2) zeros1]
  rw [weights_block_h V c t, bias_block_h V c t]
  generalize hG : Cert.Dense.head (V c (Pipeline.arrRef spec2 0)) (V c (Pipeline.arrRef spec2 1))
      (V c (Pipeline.arrRef spec2 2)) = G
  generalize hP : k2_pay1 (F := Ideal) (iblk2 V c 0 t) (V c (Pipeline.arrRef spec2 1)) (V c (Pipeline.arrRef spec2 2)) = P
  funext j
  show P j = G (((cfg2.win 3).blk t).view.emb j)
  rw [← hP, ← hG]
  obtain ⟨o0, o1⟩ := out_block_h t j
  exact head_point (iblk2 V c 0 t) (V c (Pipeline.arrRef spec2 1)) (V c (Pipeline.arrRef spec2 2))
    (V c (Pipeline.arrRef spec2 0)) j (((cfg2.win 3).blk t).view.emb j)
    (fun k => input_block_h V c t (ix2 (j 0) k) (ix2 ((((cfg2.win 3).blk t).view.emb j : S50000x2.Idx) 0) k) o0 rfl)
    o1

/-- An index of the output array is in point t's block exactly when each coordinate lies in the block's range. -/
theorem mem_out_block_h (t : Fin cfg2.N) (i : S50000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v90).slice (win2_3.rect t)).set ↔ _
  rw [View.set_slice_whole, Rect.mem_set_unit]
  exact Iff.rfl

/-- Row r of the output is written by the point r / 5000: the ten blocks cover the array. -/
theorem out_cover_h (i : S50000x2.Idx) :
    ∃ t : Fin cfg2.N, (cfg2.win 3).flush t = true ∧ i ∈ ((cfg2.win 3).blk t).view.set := by
  have hi0 : (i 0).val < 50000 := (i 0).isLt
  have hi1 : (i 1).val < 2 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, e0, e1⟩ := grid_index_h t
  refine ⟨t, flush2_3 t, ?_⟩
  rw [mem_out_block_h]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 2 ≤ (i 1).val ∧ (i 1).val < win2_3.index t (1 : Fin 2) * 2 + 2
    omega

/-- After the launch the output array is the head of the arrays the launch found. -/
theorem region2_array (c : Dev nD) :
    (dat2 (F := Ideal) V c).arrAt 3 cfg2.N
      = Cert.Dense.head (V c (Pipeline.arrRef spec2 0)) (V c (Pipeline.arrRef spec2 1)) (V c (Pipeline.arrRef spec2 2)) :=
  (dat2 (F := Ideal) V c).arrAt_eq_of_cover 3 _ (fun t _ => flushed_h V c t) out_cover_h

end Cert.KernelIdeal.Blocks

end
-- ==== Proof.KernelValue.lean ====
/-
  The idealized kernel's result is the reference's last stage of the argument arrays.

  Region by region. The first layer's region finds x, T1 = P x, T2 = 2 P (P x) - x, the first weight stack and bias, and
  leaves in its output array the layer's dense part of them, which is the reference's first activation h. The stretch of
  host operations that follows leaves P h and 2 P (P h) - h, the second region the second activation, and the head's
  region the logits: the reference's result.
-/
import proofs.«106720_j20590073217364_1_alg».proof.Proof.HostStages
import proofs.«106720_j20590073217364_1_alg».proof.Proof.RefDense
import proofs.«106720_j20590073217364_1_alg».proof.Proof.Blocks

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

-- the argument arrays at launch
set_option quotPrecheck false
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)

/-! ## The first layer -/

/-- The first region's output array is the reference's first activation. -/
theorem act1 : W4 m ρ c (Proc.devRef .tc main_v59) = val_main_v73 (F := Ideal) x0 x1 x2 x3 := by
  refine (W4_arr m ρ c 5).trans ((Blocks.region0_array (V3 m ρ) c).trans ?_)
  rw [Cert.RefDense.layer1_eq]
  show Cert.Dense.layer (W3 m ρ c (Proc.devRef .tc main_arg0)) (W3 m ρ c (Proc.devRef .tc main_v42))
      (W3 m ρ c (Proc.devRef .tc main_v58)) (W3 m ρ c (Proc.devRef .tc main_arg2)) (W3 m ρ c (Proc.devRef .tc main_arg3)) = _
  rw [entry0_arg0, entry0_prop, entry0_cheb, entry0_arg2, entry0_arg3]

/-- A region keeps every buffer that is not one of its arrays. -/
theorem exit0_row : W4 m ρ c (Proc.devRef .tc main_v1) = val_main_v75 (F := Ideal) x1 :=
  (W4_of_ne m ρ c main_v1 (by decide)).trans (entry0_row m ρ c)
theorem exit0_col : W4 m ρ c (Proc.devRef .tc main_v3) = val_main_v77 (F := Ideal) x1 :=
  (W4_of_ne m ρ c main_v3 (by decide)).trans (entry0_col m ρ c)
theorem exit0_weights : W4 m ρ c (Proc.devRef .tc main_v29) = val_main_v103 (F := Ideal) x1 :=
  (W4_of_ne m ρ c main_v29 (by decide)).trans (entry0_weights m ρ c)
theorem exit0_arg4 : W4 m ρ c (Proc.devRef .tc main_arg4) = x4 :=
  (W4_of_ne m ρ c main_arg4 (by decide)).trans (entry0_arg4 m ρ c)
theorem exit0_arg5 : W4 m ρ c (Proc.devRef .tc main_arg5) = x5 :=
  (W4_of_ne m ρ c main_arg5 (by decide)).trans (entry0_arg5 m ρ c)
theorem exit0_arg6 : W4 m ρ c (Proc.devRef .tc main_arg6) = x6 :=
  (W4_of_ne m ρ c main_arg6 (by decide)).trans (entry0_arg6 m ρ c)
theorem exit0_arg7 : W4 m ρ c (Proc.devRef .tc main_arg7) = x7 :=
  (W4_of_ne m ρ c main_arg7 (by decide)).trans (entry0_arg7 m ρ c)

/-! ## The second layer -/

theorem entry1_act : W5 m ρ c (Proc.devRef .tc main_v59) = val_main_v73 (F := Ideal) x0 x1 x2 x3 :=
  (hostOps1_keeps_v59 (W4 m ρ c)).trans (act1 m ρ c)
theorem entry1_prop : W5 m ρ c (Proc.devRef .tc main_v72) = val_main_v119 (F := Ideal) x0 x1 x2 x3 :=
  prop2_stretch (W4 m ρ c) x0 x1 x2 x3 (act1 m ρ c) (exit0_row m ρ c) (exit0_col m ρ c) (exit0_weights m ρ c)
theorem entry1_cheb : W5 m ρ c (Proc.devRef .tc main_v88) = val_main_v139 (F := Ideal) x0 x1 x2 x3 :=
  cheb2_stretch (W4 m ρ c) x0 x1 x2 x3 (act1 m ρ c) (exit0_row m ρ c) (exit0_col m ρ c) (exit0_weights m ρ c)
theorem entry1_arg4 : W5 m ρ c (Proc.devRef .tc main_arg4) = x4 :=
  (hostOps1_keeps_arg4 (W4 m ρ c)).trans (exit0_arg4 m ρ c)
theorem entry1_arg5 : W5 m ρ c (Proc.devRef .tc main_arg5) = x5 :=
  (hostOps1_keeps_arg5 (W4 m ρ c)).trans (exit0_arg5 m ρ c)
theorem entry1_arg6 : W5 m ρ c (Proc.devRef .tc main_arg6) = x6 :=
  (hostOps1_keeps_arg6 (W4 m ρ c)).trans (exit0_arg6 m ρ c)
theorem entry1_arg7 : W5 m ρ c (Proc.devRef .tc main_arg7) = x7 :=
  (hostOps1_keeps_arg7 (W4 m ρ c)).trans (exit0_arg7 m ρ c)

/-- The second region's output array is the reference's second activation. -/
theorem act2 : W6 m ρ c (Proc.devRef .tc main_v89) = val_main_v147 (F := Ideal) x0 x1 x2 x3 x4 x5 := by
  refine (W6_arr m ρ c 5).trans ((Blocks.region1_array (V5 m ρ) c).trans ?_)
  rw [Cert.RefDense.layer2_eq]
  show Cert.Dense.layer (W5 m ρ c (Proc.devRef .tc main_v59)) (W5 m ρ c (Proc.devRef .tc main_v72))
      (W5 m ρ c (Proc.devRef .tc main_v88)) (W5 m ρ c (Proc.devRef .tc main_arg4)) (W5 m ρ c (Proc.devRef .tc main_arg5)) = _
  rw [entry1_act, entry1_prop, entry1_cheb, entry1_arg4, entry1_arg5]

theorem entry2_arg6 : W6 m ρ c (Proc.devRef .tc main_arg6) = x6 :=
  (W6_of_ne m ρ c main_arg6 (by decide)).trans (entry1_arg6 m ρ c)
theorem entry2_arg7 : W6 m ρ c (Proc.devRef .tc main_arg7) = x7 :=
  (W6_of_ne m ρ c main_arg7 (by decide)).trans (entry1_arg7 m ρ c)

/-! ## The head -/

/-- The head's output array, the program's result, is the reference's result of the same arguments. -/
theorem result_eq : W7 m ρ c (Proc.devRef .tc main_v90) = val_main_v151 (F := Ideal) x0 x1 x2 x3 x4 x5 x6 x7 := by
  refine (W7_arr m ρ c 3).trans ((Blocks.region2_array (V6 m ρ) c).trans ?_)
  rw [Cert.RefDense.head_eq]
  show Cert.Dense.head (W6 m ρ c (Proc.devRef .tc main_v89)) (W6 m ρ c (Proc.devRef .tc main_arg6))
      (W6 m ρ c (Proc.devRef .tc main_arg7)) = _
  rw [act2, entry2_arg6, entry2_arg7]

end Cert.KernelIdeal.Host

end
-- ==== Proof.lean ====
/-
  The certificate: a two-layer Chebyshev graph convolution with a linear head, the kernel program against its jnp
  reference.

  Both programs propagate features along the graph's edges on the host (gather by the row index, scale by the edge
  weight -(d[row]^(-1/2) d[col]^(-1/2)), scatter-add by the column index) to form T0 = z, T1 = P z, T2 = 2 P (P z) - z.
  The kernel program then computes each layer's dense part, relu (((T0 W[0] + T1 W[1]) + T2 W[2]) + b), and the head
  h Wlin + blin in three kernel regions over ten blocks of 5000 rows, its matrix products in bf16 operands with an f32
  accumulator; the reference computes them on the whole arrays with f32 matrix products. On the extended reals a change
  of float format is the identity and a matrix product is the sum over the 64 contracted coordinates in either program,
  so each region's output array is the reference's activation (Proof/Blocks.lean over Proof/Payloads.lean on the kernel's
  side, Proof/RefDense.lean on the reference's, both against Proof/DenseSpec.lean), the host stretches between the
  regions are the reference's own propagation stages up to the order of the two factors of the scaling product
  (Proof/HostStages.lean), and the result buffers agree entry by entry (Proof/KernelValue.lean). Nothing here needs the
  inputs to be finite: the only laws used are the commutativity of the product and the independence of a finite sum
  from the order of its terms.
  The three frames: the kernel programs' are the generated ones; the reference's is its run with the result dropped.
  The idealization rewrote no operation, so there is nothing to preserve.
-/
import proofs.«106720_j20590073217364_1_alg».proof.Defs
import proofs.«106720_j20590073217364_1_alg».proof.Proof.Gen.Kernel
import proofs.«106720_j20590073217364_1_alg».proof.Proof.Gen.Kernel.Skeleton
import proofs.«106720_j20590073217364_1_alg».proof.Proof.Gen.Kernel.Launch
import proofs.«106720_j20590073217364_1_alg».proof.Proof.Gen.Kernel.Points
import proofs.«106720_j20590073217364_1_alg».proof.Proof.Gen.Kernel.Frame
import proofs.«106720_j20590073217364_1_alg».proof.Proof.Gen.KernelIdeal
import proofs.«106720_j20590073217364_1_alg».proof.Proof.Gen.KernelIdeal.Skeleton
import proofs.«106720_j20590073217364_1_alg».proof.Proof.Gen.KernelIdeal.Launch
import proofs.«106720_j20590073217364_1_alg».proof.Proof.Gen.KernelIdeal.Points
import proofs.«106720_j20590073217364_1_alg».proof.Proof.Gen.KernelIdeal.Frame
import proofs.«106720_j20590073217364_1_alg».proof.Proof.Gen.ReferenceIdeal
import proofs.«106720_j20590073217364_1_alg».proof.Proof.Gen.Pre_finite_inputs
import proofs.«106720_j20590073217364_1_alg».proof.Proof.RefRunP
import proofs.«106720_j20590073217364_1_alg».proof.Proof.RefReadP
import proofs.«106720_j20590073217364_1_alg».proof.Proof.KernelRun
import proofs.«106720_j20590073217364_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the eight arguments both programs end with the reference's last stage of those
    arguments in their result buffers, and with the edge array, their second result, as launched. -/
theorem algebraic : Cert.algebraic_KernelIdeal_ReferenceIdeal := by
  intro m ρ m' ρ' _ hagree
  refine ⟨fun c => Cert.ReferenceIdeal.ReadP.val_main_v151 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => m ((c.tc : Thread Cert.KernelIdeal.nD Cert.KernelIdeal.τ).loc Cert.KernelIdeal.main_arg1), ?_, ?_⟩
  · -- the kernel: its named run, the result buffer read region by region
    refine (θ_run Cert.KernelIdeal.defs _ _).mono (fun _ h c => ⟨(h c).1.trans (Cert.KernelIdeal.Host.result_eq m ρ c), (h c).2.2.1, (h c).2⟩)
      (Cert.KernelIdeal.Named.run_named (F := Ideal) m ρ)
  · -- the reference: its run, the result's term the last stage, the arguments rewritten by the agreement
    refine (θ_run Cert.ReferenceIdeal.defs _ _).mono (fun _ h c => ⟨?_, ?_, (h c).2.2⟩)
      (Cert.ReferenceIdeal.ValueP.run (F := Ideal) m' ρ')
    · rw [(h c).1, Cert.ReferenceIdeal.ReadP.val_main_v151_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
    · rw [(h c).2.1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
